-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v191) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts]

def fn {F : FTy → Type} [FloatOps F] (main_arg0 : FVec F S8388608x3 .f32) (main_arg1 : FVec F S8388608x3 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  let main_v4 : FVec F S8388608x3 .f32 := Host.absf main_arg1
  let main_cst_0 : FVec F S_ .f32 := constant S_ .f32 0x7F800000#32
  let main_v5 : FVec F S8388608x3 .f32 := broadcastInDim S8388608x3 ![] bcast_S_S8388608x3 main_cst_0
  let main_v6 : IVec S8388608x3 1 := cmpf .olt main_v4 main_v5
  let main_c_1 : IVec S_ 1 := constantI S_ 1 1#1
  let main_v7 : IVec S_ 1 := (fun x v => Host.reduce IntOp.andi x v reducesTo_S8388608x3_S_d0_1 h_S_) main_v6 main_c_1
  let main_v8 : IVec S_ 1 := andi main_v3 main_v7
  main_v8
-- ==== Kernel.lean ====
abbrev S8388608x3 : Shape := ⟨2, ![8388608, 3]⟩
abbrev S8388608x1 : Shape := ⟨2, ![8388608, 1]⟩
abbrev S8388608 : Shape := ⟨1, ![8388608]⟩
abbrev S16384x512 : Shape := ⟨2, ![16384, 512]⟩
abbrev S3x16384x512 : Shape := ⟨3, ![3, 16384, 512]⟩
abbrev S256x512 : Shape := ⟨2, ![256, 512]⟩
abbrev S3x256x512 : Shape := ⟨3, ![3, 256, 512]⟩
abbrev S1x256x512 : Shape := ⟨3, ![1, 256, 512]⟩
abbrev S3x8388608 : Shape := ⟨2, ![3, 8388608]⟩

abbrev nBuf : Space → Nat
  | .hbm => 22
  | .vmem => 14
  | .smem => 0
  | _ => 0

abbrev bufTy : (tb : Table) → Fin (tcTables nBuf tb) → BufTy
  | .hbm, ⟨0, _⟩ => ⟨S8388608x3, .f32⟩
  | .hbm, ⟨1, _⟩ => ⟨S8388608x3, .f32⟩
  | .hbm, ⟨2, _⟩ => ⟨S8388608x1, .f32⟩
  | .hbm, ⟨3, _⟩ => ⟨S8388608, .f32⟩
  | .hbm, ⟨4, _⟩ => ⟨S16384x512, .f32⟩
  | .hbm, ⟨5, _⟩ => ⟨S8388608x1, .f32⟩
  | .hbm, ⟨6, _⟩ => ⟨S8388608, .f32⟩
  | .hbm, ⟨7, _⟩ => ⟨S16384x512, .f32⟩
  | .hbm, ⟨8, _⟩ => ⟨S8388608x1, .f32⟩
  | .hbm, ⟨9, _⟩ => ⟨S8388608, .f32⟩
  | .hbm, ⟨10, _⟩ => ⟨S16384x512, .f32⟩
  | .hbm, ⟨11, _⟩ => ⟨S8388608x1, .f32⟩
  | .hbm, ⟨12, _⟩ => ⟨S8388608, .f32⟩
  | .hbm, ⟨13, _⟩ => ⟨S16384x512, .f32⟩
  | .hbm, ⟨14, _⟩ => ⟨S8388608x1, .f32⟩
  | .hbm, ⟨15, _⟩ => ⟨S8388608, .f32⟩
  | .hbm, ⟨16, _⟩ => ⟨S16384x512, .f32⟩
  | .hbm, ⟨17, _⟩ => ⟨S8388608x1, .f32⟩
  | .hbm, ⟨18, _⟩ => ⟨S8388608, .f32⟩
  | .hbm, ⟨19, _⟩ => ⟨S16384x512, .f32⟩
  | .hbm, ⟨20, _⟩ => ⟨S3x16384x512, .f32⟩
  | .hbm, ⟨21, _⟩ => ⟨S3x8388608, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S3x256x512, .f32⟩
  | .local _ .vmem, ⟨13, _⟩ => ⟨S3x256x512, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S8388608x3_S8388608x1_0_0 : S8388608x3.Slices ![0, 0] S8388608x1
  shapeCasts_S8388608x1_S8388608 : S8388608x1.ShapeCasts S8388608
  shapeCasts_S8388608_S16384x512 : S8388608.ShapeCasts S16384x512
  slices_S8388608x3_S8388608x1_0_1 : S8388608x3.Slices ![0, 1] S8388608x1
  slices_S8388608x3_S8388608x1_0_2 : S8388608x3.Slices ![0, 2] S8388608x1
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S3x256x512_S1x256x512_0_0_0 : ∀ a, (![0, 0, 0] : Fin 3 → Nat) a + S1x256x512.size a ≤ S3x256x512.size a
  h_S1x256x512 : 0 < S1x256x512.numel
  shapeCasts_S1x256x512_S256x512 : S1x256x512.ShapeCasts S256x512
  shapeCasts_S256x512_S1x256x512 : S256x512.ShapeCasts S1x256x512
  inb_S3x256x512_S1x256x512_1_0_0 : ∀ a, (![1, 0, 0] : Fin 3 → Nat) a + S1x256x512.size a ≤ S3x256x512.size a
  inb_S3x256x512_S1x256x512_2_0_0 : ∀ a, (![2, 0, 0] : Fin 3 → Nat) a + S1x256x512.size a ≤ S3x256x512.size a
  shapeCasts_S3x16384x512_S3x8388608 : S3x16384x512.ShapeCasts S3x8388608
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .f32 = 32 ∨ (Rect.block (s := S16384x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S16384x512.size a
  hwx0_1 : ∀ i : grid0.Coords, EltTy.bits .f32 = 32 ∨ (Rect.block (s := S16384x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S16384x512.size a
  hwx0_2 : ∀ i : grid0.Coords, EltTy.bits .f32 = 32 ∨ (Rect.block (s := S16384x512) S256x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S16384x512.size a
  hwx0_3 : ∀ i : grid0.Coords, EltTy.bits .f32 = 32 ∨ (Rect.block (s := S16384x512) S256x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S16384x512.size a
  hwx0_4 : ∀ i : grid0.Coords, EltTy.bits .f32 = 32 ∨ (Rect.block (s := S16384x512) S256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S16384x512.size a
  hwx0_5 : ∀ i : grid0.Coords, EltTy.bits .f32 = 32 ∨ (Rect.block (s := S16384x512) S256x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S3x256x512.size a ≤ S3x16384x512.size a
  hwx0_6 : ∀ i : grid0.Coords, EltTy.bits .f32 = 32 ∨ (Rect.block (s := S3x16384x512) S3x256x512.size (cc0_transform_6 i) (hinb0_6 i)).WholeWords (EltTy.packing .f32)

variable [Facts₀]

abbrev win0_0 : Pipeline.Window sig grid0 :=
  Pipeline.Window.ofSpec (Memref.whole main_v2) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S256x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S3x256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608x2 : Shape := ⟨2, ![8388608, 2]⟩
abbrev S_ : Shape := ⟨0, ![]⟩
abbrev S8388608x1 : Shape := ⟨2, ![8388608, 1]⟩
abbrev S8388608 : Shape := ⟨1, ![8388608]⟩
abbrev S1x8388608 : Shape := ⟨2, ![1, 8388608]⟩
abbrev S3x8388608 : Shape := ⟨2, ![3, 8388608]⟩

abbrev nBuf : Space → Nat
  | .hbm => 261
  | .vmem => 0
  | .smem => 0
  | _ => 0

abbrev hbmTy0_0 (i : Nat) : BufTy := match i % 128 with
  | 0 => ⟨S8388608x3, .f32⟩
  | 1 => ⟨S8388608x3, .f32⟩
  | 2 => ⟨S8388608x2, .f32⟩
  | 3 => ⟨S_, .f32⟩
  | 4 => ⟨S_, .f32⟩
  | 5 => ⟨S_, .f32⟩
  | 6 => ⟨S8388608x2, .f32⟩
  | 7 => ⟨S8388608x2, .f32⟩
  | 8 => ⟨S_, .f32⟩
  | 9 => ⟨S8388608x2, .f32⟩
  | 10 => ⟨S8388608x2, .f32⟩
  | 11 => ⟨S8388608x1, .f32⟩
  | 12 => ⟨S8388608, .f32⟩
  | 13 => ⟨S_, .f32⟩
  | 14 => ⟨S8388608, .f32⟩
  | 15 => ⟨S8388608, .f32⟩
  | 16 => ⟨S8388608, .f32⟩
  | 17 => ⟨S8388608x1, .f32⟩
  | 18 => ⟨S8388608, .f32⟩
  | 19 => ⟨S_, .f32⟩
  | 20 => ⟨S8388608, .f32⟩
  | 21 => ⟨S8388608, .f32⟩
  | 22 => ⟨S8388608, .f32⟩
  | 23 => ⟨S8388608x1, .f32⟩
  | 24 => ⟨S8388608, .f32⟩
  | 25 => ⟨S8388608, .f32⟩
  | 26 => ⟨S8388608, .f32⟩
  | 27 => ⟨S8388608, .f32⟩
  | 28 => ⟨S8388608, .f32⟩
  | 29 => ⟨S8388608, .f32⟩
  | 30 => ⟨S8388608, .f32⟩
  | 31 => ⟨S8388608, .f32⟩
  | 32 => ⟨S8388608, .f32⟩
  | 33 => ⟨S8388608, .f32⟩
  | 34 => ⟨S8388608, .f32⟩
  | 35 => ⟨S8388608, .f32⟩
  | 36 => ⟨S8388608, .f32⟩
  | 37 => ⟨S8388608, .f32⟩
  | 38 => ⟨S8388608, .f32⟩
  | 39 => ⟨S8388608, .f32⟩
  | 40 => ⟨S8388608, .f32⟩
  | 41 => ⟨S8388608x2, .f32⟩
  | 42 => ⟨S_, .f32⟩
  | 43 => ⟨S_, .f32⟩
  | 44 => ⟨S_, .f32⟩
  | 45 => ⟨S8388608x2, .f32⟩
  | 46 => ⟨S8388608x2, .f32⟩
  | 47 => ⟨S_, .f32⟩
  | 48 => ⟨S8388608x2, .f32⟩
  | 49 => ⟨S8388608x2, .f32⟩
  | 50 => ⟨S8388608x1, .f32⟩
  | 51 => ⟨S8388608, .f32⟩
  | 52 => ⟨S_, .f32⟩
  | 53 => ⟨S8388608, .f32⟩
  | 54 => ⟨S8388608, .f32⟩
  | 55 => ⟨S8388608, .f32⟩
  | 56 => ⟨S8388608x1, .f32⟩
  | 57 => ⟨S8388608, .f32⟩
  | 58 => ⟨S_, .f32⟩
  | 59 => ⟨S8388608, .f32⟩
  | 60 => ⟨S8388608, .f32⟩
  | 61 => ⟨S8388608, .f32⟩
  | 62 => ⟨S8388608x1, .f32⟩
  | 63 => ⟨S8388608, .f32⟩
  | 64 => ⟨S8388608, .f32⟩
  | 65 => ⟨S8388608, .f32⟩
  | 66 => ⟨S8388608, .f32⟩
  | 67 => ⟨S8388608, .f32⟩
  | 68 => ⟨S8388608, .f32⟩
  | 69 => ⟨S8388608, .f32⟩
  | 70 => ⟨S8388608, .f32⟩
  | 71 => ⟨S8388608, .f32⟩
  | 72 => ⟨S8388608, .f32⟩
  | 73 => ⟨S8388608, .f32⟩
  | 74 => ⟨S8388608, .f32⟩
  | 75 => ⟨S8388608, .f32⟩
  | 76 => ⟨S8388608, .f32⟩
  | 77 => ⟨S8388608, .f32⟩
  | 78 => ⟨S8388608, .f32⟩
  | 79 => ⟨S8388608, .f32⟩
  | 80 => ⟨S8388608, .f32⟩
  | 81 => ⟨S8388608, .f32⟩
  | 82 => ⟨S8388608, .f32⟩
  | 83 => ⟨S8388608, .f32⟩
  | 84 => ⟨S_, .f32⟩
  | 85 => ⟨S8388608, .f32⟩
  | 86 => ⟨S8388608, .f32⟩
  | 87 => ⟨S8388608, .f32⟩
  | 88 => ⟨S8388608, .f32⟩
  | 89 => ⟨S8388608, .f32⟩
  | 90 => ⟨S8388608, .f32⟩
  | 91 => ⟨S8388608, .f32⟩
  | 92 => ⟨S_, .f32⟩
  | 93 => ⟨S_, .f32⟩
  | 94 => ⟨S8388608, .f32⟩
  | 95 => ⟨S8388608, .f32⟩
  | 96 => ⟨S8388608, .f32⟩
  | 97 => ⟨S_, .f32⟩
  | 98 => ⟨S8388608, .f32⟩
  | 99 => ⟨S8388608, .f32⟩
  | 100 => ⟨S8388608, .f32⟩
  | 101 => ⟨S_, .f32⟩
  | 102 => ⟨S_, .f32⟩
  | 103 => ⟨S8388608, .f32⟩
  | 104 => ⟨S8388608, .f32⟩
  | 105 => ⟨S8388608, .f32⟩
  | 106 => ⟨S_, .f32⟩
  | 107 => ⟨S8388608, .f32⟩
  | 108 => ⟨S8388608, .f32⟩
  | 109 => ⟨S8388608, .f32⟩
  | 110 => ⟨S_, .f32⟩
  | 111 => ⟨S_, .f32⟩
  | 112 => ⟨S8388608, .f32⟩
  | 113 => ⟨S8388608, .f32⟩
  | 114 => ⟨S8388608, .f32⟩
  | 115 => ⟨S_, .f32⟩
  | 116 => ⟨S_, .f32⟩
  | 117 => ⟨S8388608, .f32⟩
  | 118 => ⟨S8388608, .f32⟩
  | 119 => ⟨S8388608, .f32⟩
  | 120 => ⟨S_, .f32⟩
  | 121 => ⟨S_, .f32⟩
  | 122 => ⟨S8388608, .f32⟩
  | 123 => ⟨S8388608, .f32⟩
  | 124 => ⟨S8388608, .f32⟩
  | 125 => ⟨S_, .f32⟩
  | 126 => ⟨S_, .f32⟩
  | 127 => ⟨S8388608, .f32⟩
  | _ => ⟨S8388608x3, .f32⟩

abbrev hbmTy0_1 (i : Nat) : BufTy := match i % 128 with
  | 0 => ⟨S8388608, .f32⟩
  | 1 => ⟨S_, .f32⟩
  | 2 => ⟨S8388608, .f32⟩
  | 3 => ⟨S8388608, .f32⟩
  | 4 => ⟨S8388608, .f32⟩
  | 5 => ⟨S8388608, .f32⟩
  | 6 => ⟨S_, .f32⟩
  | 7 => ⟨S8388608, .f32⟩
  | 8 => ⟨S8388608, .f32⟩
  | 9 => ⟨S_, .f32⟩
  | 10 => ⟨S8388608, .f32⟩
  | 11 => ⟨S8388608, .f32⟩
  | 12 => ⟨S_, .f32⟩
  | 13 => ⟨S8388608, .f32⟩
  | 14 => ⟨S8388608, .f32⟩
  | 15 => ⟨S8388608, .f32⟩
  | 16 => ⟨S_, .f32⟩
  | 17 => ⟨S8388608, .f32⟩
  | 18 => ⟨S8388608, .f32⟩
  | 19 => ⟨S8388608, .f32⟩
  | 20 => ⟨S_, .f32⟩
  | 21 => ⟨S8388608, .f32⟩
  | 22 => ⟨S8388608, .f32⟩
  | 23 => ⟨S8388608, .f32⟩
  | 24 => ⟨S8388608, .f32⟩
  | 25 => ⟨S8388608, .f32⟩
  | 26 => ⟨S8388608, .f32⟩
  | 27 => ⟨S8388608, .f32⟩
  | 28 => ⟨S8388608, .f32⟩
  | 29 => ⟨S8388608, .f32⟩
  | 30 => ⟨S8388608, .f32⟩
  | 31 => ⟨S8388608, .f32⟩
  | 32 => ⟨S8388608, .f32⟩
  | 33 => ⟨S8388608, .f32⟩
  | 34 => ⟨S8388608, .f32⟩
  | 35 => ⟨S8388608, .f32⟩
  | 36 => ⟨S8388608, .f32⟩
  | 37 => ⟨S8388608, .f32⟩
  | 38 => ⟨S8388608, .f32⟩
  | 39 => ⟨S8388608, .f32⟩
  | 40 => ⟨S8388608, .f32⟩
  | 41 => ⟨S8388608, .f32⟩
  | 42 => ⟨S8388608, .f32⟩
  | 43 => ⟨S8388608, .f32⟩
  | 44 => ⟨S8388608, .f32⟩
  | 45 => ⟨S8388608, .f32⟩
  | 46 => ⟨S8388608, .f32⟩
  | 47 => ⟨S8388608, .f32⟩
  | 48 => ⟨S8388608, .f32⟩
  | 49 => ⟨S8388608, .f32⟩
  | 50 => ⟨S8388608, .f32⟩
  | 51 => ⟨S8388608, .f32⟩
  | 52 => ⟨S8388608, .f32⟩
  | 53 => ⟨S8388608, .f32⟩
  | 54 => ⟨S8388608, .f32⟩
  | 55 => ⟨S8388608, .f32⟩
  | 56 => ⟨S8388608, .f32⟩
  | 57 => ⟨S8388608, .f32⟩
  | 58 => ⟨S8388608, .f32⟩
  | 59 => ⟨S8388608, .f32⟩
  | 60 => ⟨S8388608, .f32⟩
  | 61 => ⟨S8388608, .f32⟩
  | 62 => ⟨S8388608, .f32⟩
  | 63 => ⟨S8388608, .f32⟩
  | 64 => ⟨S8388608, .f32⟩
  | 65 => ⟨S8388608, .f32⟩
  | 66 => ⟨S_, .f32⟩
  | 67 => ⟨S_, .f32⟩
  | 68 => ⟨S8388608, .f32⟩
  | 69 => ⟨S8388608, .f32⟩
  | 70 => ⟨S8388608, .f32⟩
  | 71 => ⟨S_, .f32⟩
  | 72 => ⟨S8388608, .f32⟩
  | 73 => ⟨S8388608, .f32⟩
  | 74 => ⟨S8388608, .i1⟩
  | 75 => ⟨S_, .f32⟩
  | 76 => ⟨S_, .f32⟩
  | 77 => ⟨S8388608, .f32⟩
  | 78 => ⟨S8388608, .f32⟩
  | 79 => ⟨S8388608, .f32⟩
  | 80 => ⟨S8388608, .f32⟩
  | 81 => ⟨S_, .f32⟩
  | 82 => ⟨S8388608, .f32⟩
  | 83 => ⟨S8388608, .f32⟩
  | 84 => ⟨S8388608, .f32⟩
  | 85 => ⟨S_, .f32⟩
  | 86 => ⟨S8388608, .f32⟩
  | 87 => ⟨S8388608, .f32⟩
  | 88 => ⟨S_, .f32⟩
  | 89 => ⟨S_, .f32⟩
  | 90 => ⟨S8388608, .f32⟩
  | 91 => ⟨S8388608, .f32⟩
  | 92 => ⟨S8388608, .f32⟩
  | 93 => ⟨S_, .f32⟩
  | 94 => ⟨S8388608, .f32⟩
  | 95 => ⟨S8388608, .f32⟩
  | 96 => ⟨S8388608, .f32⟩
  | 97 => ⟨S8388608, .f32⟩
  | 98 => ⟨S8388608, .f32⟩
  | 99 => ⟨S8388608, .f32⟩
  | 100 => ⟨S8388608, .f32⟩
  | 101 => ⟨S_, .f32⟩
  | 102 => ⟨S8388608, .f32⟩
  | 103 => ⟨S8388608, .f32⟩
  | 104 => ⟨S8388608, .f32⟩
  | 105 => ⟨S8388608, .f32⟩
  | 106 => ⟨S8388608, .f32⟩
  | 107 => ⟨S_, .f32⟩
  | 108 => ⟨S8388608, .f32⟩
  | 109 => ⟨S8388608, .f32⟩
  | 110 => ⟨S8388608, .f32⟩
  | 111 => ⟨S_, .f32⟩
  | 112 => ⟨S8388608, .f32⟩
  | 113 => ⟨S8388608, .f32⟩
  | 114 => ⟨S_, .f32⟩
  | 115 => ⟨S_, .f32⟩
  | 116 => ⟨S8388608, .f32⟩
  | 117 => ⟨S8388608, .f32⟩
  | 118 => ⟨S8388608, .f32⟩
  | 119 => ⟨S8388608, .f32⟩
  | 120 => ⟨S_, .f32⟩
  | 121 => ⟨S8388608, .f32⟩
  | 122 => ⟨S8388608, .f32⟩
  | 123 => ⟨S_, .f32⟩
  | 124 => ⟨S8388608, .f32⟩
  | 125 => ⟨S8388608, .f32⟩
  | 126 => ⟨S_, .f32⟩
  | 127 => ⟨S8388608, .f32⟩
  | _ => ⟨S8388608x3, .f32⟩

abbrev hbmTy0_2 (i : Nat) : BufTy := match i % 128 with
  | 0 => ⟨S8388608, .f32⟩
  | 1 => ⟨S1x8388608, .f32⟩
  | 2 => ⟨S1x8388608, .f32⟩
  | 3 => ⟨S1x8388608, .f32⟩
  | 4 => ⟨S3x8388608, .f32⟩
  | _ => ⟨S8388608x3, .f32⟩

abbrev hbmTy (i : Nat) : BufTy := match i / 128 with
  | 0 => hbmTy0_0 i
  | 1 => hbmTy0_1 i
  | 2 => hbmTy0_2 i
  | _ => ⟨S8388608x3, .f32⟩

abbrev bufTy : (tb : Table) → Fin (tcTables nBuf tb) → BufTy
  | .hbm, ⟨i, _⟩ => hbmTy i
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_cst_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_6 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_7 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_8 : Ref sig .tc := ⟨.hbm, 92, rfl⟩
abbrev main_call2_v0 : Ref sig .tc := ⟨.hbm, 93, rfl⟩
abbrev main_call2_v1 : Ref sig .tc := ⟨.hbm, 94, rfl⟩
abbrev main_v71 : Ref sig .tc := ⟨.hbm, 95, rfl⟩
abbrev main_v72 : Ref sig .tc := ⟨.hbm, 96, rfl⟩
abbrev main_cst_9 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_10 : Ref sig .tc := ⟨.hbm, 101, rfl⟩
abbrev main_call3_v0 : Ref sig .tc := ⟨.hbm, 102, rfl⟩
abbrev main_call3_v1 : Ref sig .tc := ⟨.hbm, 103, rfl⟩
abbrev main_v76 : Ref sig .tc := ⟨.hbm, 104, rfl⟩
abbrev main_v77 : Ref sig .tc := ⟨.hbm, 105, rfl⟩
abbrev main_cst_11 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_12 : Ref sig .tc := ⟨.hbm, 110, rfl⟩
abbrev main_call4_v0 : Ref sig .tc := ⟨.hbm, 111, rfl⟩
abbrev main_call4_v1 : Ref sig .tc := ⟨.hbm, 112, rfl⟩
abbrev main_v81 : Ref sig .tc := ⟨.hbm, 113, rfl⟩
abbrev main_v82 : Ref sig .tc := ⟨.hbm, 114, rfl⟩
abbrev main_cst_13 : Ref sig .tc := ⟨.hbm, 115, rfl⟩
abbrev main_call5_v0 : Ref sig .tc := ⟨.hbm, 116, rfl⟩
abbrev main_call5_v1 : Ref sig .tc := ⟨.hbm, 117, rfl⟩
abbrev main_v83 : Ref sig .tc := ⟨.hbm, 118, rfl⟩
abbrev main_v84 : Ref sig .tc := ⟨.hbm, 119, rfl⟩
abbrev main_cst_14 : Ref sig .tc := ⟨.hbm, 120, rfl⟩
abbrev main_call6_v0 : Ref sig .tc := ⟨.hbm, 121, rfl⟩
abbrev main_call6_v1 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_call7_v0 : Ref sig .tc := ⟨.hbm, 126, rfl⟩
abbrev main_call7_v1 : Ref sig .tc := ⟨.hbm, 127, rfl⟩
abbrev main_v87 : Ref sig .tc := ⟨.hbm, 128, rfl⟩
abbrev main_cst_16 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_cst_17 : Ref sig .tc := ⟨.hbm, 134, rfl⟩
abbrev main_v92 : Ref sig .tc := ⟨.hbm, 135, rfl⟩
abbrev main_v93 : Ref sig .tc := ⟨.hbm, 136, rfl⟩
abbrev main_cst_18 : Ref sig .tc := ⟨.hbm, 137, rfl⟩
abbrev main_v94 : Ref sig .tc := ⟨.hbm, 138, rfl⟩
abbrev main_v95 : Ref sig .tc := ⟨.hbm, 139, rfl⟩
abbrev main_cst_19 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_cst_21 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_22 : Ref sig .tc := ⟨.hbm, 194, rfl⟩
abbrev main_call8_v0 : Ref sig .tc := ⟨.hbm, 195, rfl⟩
abbrev main_call8_v1 : Ref sig .tc := ⟨.hbm, 196, rfl⟩
abbrev main_v147 : Ref sig .tc := ⟨.hbm, 197, rfl⟩
abbrev main_v148 : Ref sig .tc := ⟨.hbm, 198, rfl⟩
abbrev main_cst_23 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_cst_24 : Ref sig .tc := ⟨.hbm, 203, rfl⟩
abbrev main_call9_v0 : Ref sig .tc := ⟨.hbm, 204, rfl⟩
abbrev main_call9_v1 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_25 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_cst_26 : Ref sig .tc := ⟨.hbm, 213, rfl⟩
abbrev main_v158 : Ref sig .tc := ⟨.hbm, 214, rfl⟩
abbrev main_v159 : Ref sig .tc := ⟨.hbm, 215, rfl⟩
abbrev main_cst_27 : Ref sig .tc := ⟨.hbm, 216, rfl⟩
abbrev main_call10_v0 : Ref sig .tc := ⟨.hbm, 217, rfl⟩
abbrev main_call10_v1 : Ref sig .tc := ⟨.hbm, 218, rfl⟩
abbrev main_v160 : Ref sig .tc := ⟨.hbm, 219, rfl⟩
abbrev main_v161 : Ref sig .tc := ⟨.hbm, 220, rfl⟩
abbrev main_cst_28 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_cst_29 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_cst_30 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_cst_31 : Ref sig .tc := ⟨.hbm, 239, rfl⟩
abbrev main_v177 : Ref sig .tc := ⟨.hbm, 240, rfl⟩
abbrev main_v178 : Ref sig .tc := ⟨.hbm, 241, rfl⟩
abbrev main_cst_32 : Ref sig .tc := ⟨.hbm, 242, rfl⟩
abbrev main_call11_v0 : Ref sig .tc := ⟨.hbm, 243, rfl⟩
abbrev main_call11_v1 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_cst_33 : Ref sig .tc := ⟨.hbm, 248, rfl⟩
abbrev main_v182 : Ref sig .tc := ⟨.hbm, 249, rfl⟩
abbrev main_v183 : Ref sig .tc := ⟨.hbm, 250, rfl⟩
abbrev main_cst_34 : Ref sig .tc := ⟨.hbm, 251, rfl⟩
abbrev main_v184 : Ref sig .tc := ⟨.hbm, 252, rfl⟩
abbrev main_v185 : Ref sig .tc := ⟨.hbm, 253, rfl⟩
abbrev main_cst_35 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩

abbrev nD : Nat := 1
abbrev τ : Topo := Topo.v7x

variable {F : FTy → Type} [FloatOps F]

class Facts₀ : Prop where
  slices_S8388608x3_S8388608x2_0_0 : S8388608x3.Slices ![0, 0] S8388608x2
  bcast_S_S8388608x2 : S_.BroadcastsInDim S8388608x2 (![] : Fin 0 → Fin S8388608x2.rank)
  slices_S8388608x2_S8388608x1_0_0 : S8388608x2.Slices ![0, 0] S8388608x1
  shapeCasts_S8388608x1_S8388608 : S8388608x1.ShapeCasts S8388608
  bcast_S_S8388608 : S_.BroadcastsInDim S8388608 (![] : Fin 0 → Fin S8388608.rank)
  slices_S8388608x2_S8388608x1_0_1 : S8388608x2.Slices ![0, 1] S8388608x1
  slices_S8388608x3_S8388608x1_0_2 : S8388608x3.Slices ![0, 2] S8388608x1
  bcast_S8388608_S1x8388608_1 : S8388608.BroadcastsInDim S1x8388608 (![1] : Fin 1 → Fin S1x8388608.rank)
  concatenates_S1x8388608_S1x8388608_S1x8388608_S3x8388608_d0 : Shape.Concatenates [S1x8388608, S1x8388608, S1x8388608] S3x8388608 0

variable [Facts₀]

class Facts : Prop extends Facts₀ where

variable [Facts]
-- ==== Proof.GaussBox.lean ====
/-
  Two rotated boxes (w, h, r) and (w', h', r') are read as centred Gaussians: the box (w, h, r) has covariance
  R diag((w/2)², (h/2)²) Rᵀ, with entries
      σ11 = a c² + b s²,   σ12 = (a - b) s c,   σ22 = a s² + b c²,   det = a b,
  where a = (w/2)², b = (h/2)², c = cos r, s = sin r, and w, h are first clipped to [1e-7, 1e7].
  From the two covariances three distances are computed, each squashed by d ↦ 1 - 1 / (1 + log (1 + d)):
  the Gaussian Wasserstein distance, the Kalman-filter overlap loss and the Kullback–Leibler divergence.
  This file states them as functions of the six numbers over the extended reals, every operation the exact one
  and in the order the programs apply them; the float literals are kept as the words the programs carry.
-/
import Idealize.ShloMosaic.PureOps.Ideal

noncomputable section

namespace GaussBox

open Idealize.ShloMosaic

/-! ## The constants -/

/-- 1e-7 as a float32. -/
abbrev lo : EReal := Ideal.ofBits .f32 0x33D6BF95#32
/-- 1e7 as a float32. -/
abbrev hi : EReal := Ideal.ofBits .f32 0x4B189680#32
/-- 1e-6 as a float32. -/
abbrev tiny : EReal := Ideal.ofBits .f32 0x358637BD#32
abbrev half : EReal := Ideal.ofBits .f32 0x3F000000#32
abbrev one : EReal := Ideal.ofBits .f32 0x3F800000#32
abbrev two : EReal := Ideal.ofBits .f32 0x40000000#32
abbrev four : EReal := Ideal.ofBits .f32 0x40800000#32
abbrev zero : EReal := Ideal.ofBits .f32 0x00000000#32

/-! ## A box's covariance -/

/-- A side length clipped to [1e-7, 1e7]: from above first, then from below. -/
def clamp (x : EReal) : EReal := max (min x hi) lo

/-- The square of half a side. -/
def sq (y : EReal) : EReal := (half * y) * (half * y)

def s11 (a b c s : EReal) : EReal := a * c * c + b * s * s
def s12 (a b c s : EReal) : EReal := (a - b) * s * c
def s22 (a b c s : EReal) : EReal := a * s * s + b * c * c

def cov11 (w h r : EReal) : EReal := s11 (sq (clamp w)) (sq (clamp h)) (Ideal.cos r) (Ideal.sin r)
def cov12 (w h r : EReal) : EReal := s12 (sq (clamp w)) (sq (clamp h)) (Ideal.cos r) (Ideal.sin r)
def cov22 (w h r : EReal) : EReal := s22 (sq (clamp w)) (sq (clamp h)) (Ideal.cos r) (Ideal.sin r)
/-- The determinant: a rotation does not change it. -/
def covDet (w h : EReal) : EReal := sq (clamp w) * sq (clamp h)

/-! ## The squash -/

/-- d ↦ 1 - 1 / (1 + log (1 + d)). -/
def squash (d : EReal) : EReal := one - Ideal.div one (one + Ideal.log1p d)

/-! ## The Gaussian Wasserstein distance -/

/-- tr Σ + tr Σ'. -/
def trSum (p11 p22 t11 t22 : EReal) : EReal := (p11 + p22) + (t11 + t22)
/-- √(det Σ det Σ'), the product clipped from below. -/
def detRoot (dp dt : EReal) : EReal := Ideal.sqrt (max (dp * dt) lo)
/-- tr(Σ Σ') + 2 √(det Σ det Σ'), clipped from below. -/
def crossTr (p11 p12 p22 t11 t12 t22 dr : EReal) : EReal :=
  max (p11 * t11 + two * p12 * t12 + p22 * t22 + two * dr) lo
/-- The distance √(tr - 2 √cross) over the scale 2 (det Σ det Σ')^(1/8), each root clipped from below, squashed. -/
def gwdOf (tr dr ct : EReal) : EReal :=
  squash (Ideal.div (Ideal.sqrt (max (tr - two * Ideal.sqrt ct) lo))
    (two * max (Ideal.sqrt (max (Ideal.sqrt (max dr lo)) lo)) lo))

/-! ## The Kalman-filter overlap -/

/-- The volume 4 √det of a box. -/
def vol (d : EReal) : EReal := four * Ideal.sqrt d
/-- det (Σ + Σ'). -/
def sumDet (m11 m12 m22 : EReal) : EReal := m11 * m22 - m12 * m12
/-- The first row of the gain K = Σ (Σ + Σ')⁻¹. -/
def gain11 (p11 p12 m12 m22 ds : EReal) : EReal := Ideal.div (p11 * m22 - p12 * m12) ds
def gain12 (p11 p12 m11 m12 ds : EReal) : EReal := Ideal.div ((zero - p11) * m12 + p12 * m11) ds
/-- A number that is not itself is replaced by zero: on the extended reals nothing is. -/
def dropUnordered (v : EReal) : EReal := Scalar.select (Ideal.cmp .one v v) zero v
/-- The second row of the gain, the fused covariance Σ - K Σ, its volume against the two boxes', and the loss. -/
def kfiOf (p11 p12 p22 vp vt m11 m12 ds k11 k12 pm : EReal) : EReal :=
  let k21 := Ideal.div (pm - p22 * m12) ds
  let k22 := Ideal.div ((zero - p12) * m12 + p22 * m11) ds
  let g11 := p11 - (k11 * p11 + k12 * p12)
  let g12 := p12 - (k11 * p12 + k12 * p22)
  let g21 := p12 - (k21 * p11 + k22 * p12)
  let g22 := p22 - (k21 * p12 + k22 * p22)
  let vb := dropUnordered (four * Ideal.sqrt (max (g11 * g22 - g12 * g21) tiny))
  max (one - Ideal.div vb (vp + vt - vb + tiny)) zero

/-! ## The Kullback–Leibler divergence -/

/-- det Σ · tr(Σ⁻¹ Σ'). -/
def adjTr (p11 p12 p22 t11 t12 t22 : EReal) : EReal := p22 * t11 - two * p12 * t12 + p11 * t22
def kldOf (dp dt x : EReal) : EReal :=
  squash (Ideal.sqrt (max (half * Ideal.div x dp + half * (Ideal.log dp - Ideal.log dt) - one) lo))

/-! ## The three results, from the six numbers -/

def gwd (w h r w' h' r' : EReal) : EReal :=
  gwdOf (trSum (cov11 w h r) (cov22 w h r) (cov11 w' h' r') (cov22 w' h' r'))
    (detRoot (covDet w h) (covDet w' h'))
    (crossTr (cov11 w h r) (cov12 w h r) (cov22 w h r) (cov11 w' h' r') (cov12 w' h' r') (cov22 w' h' r')
      (detRoot (covDet w h) (covDet w' h')))

def kfi (w h r w' h' r' : EReal) : EReal :=
  kfiOf (cov11 w h r) (cov12 w h r) (cov22 w h r) (vol (covDet w h)) (vol (covDet w' h'))
    (cov11 w h r + cov11 w' h' r') (cov12 w h r + cov12 w' h' r')
    (sumDet (cov11 w h r + cov11 w' h' r') (cov12 w h r + cov12 w' h' r') (cov22 w h r + cov22 w' h' r'))
    (gain11 (cov11 w h r) (cov12 w h r) (cov12 w h r + cov12 w' h' r') (cov22 w h r + cov22 w' h' r')
      (sumDet (cov11 w h r + cov11 w' h' r') (cov12 w h r + cov12 w' h' r') (cov22 w h r + cov22 w' h' r')))
    (gain12 (cov11 w h r) (cov12 w h r) (cov11 w h r + cov11 w' h' r') (cov12 w h r + cov12 w' h' r')
      (sumDet (cov11 w h r + cov11 w' h' r') (cov12 w h r + cov12 w' h' r') (cov22 w h r + cov22 w' h' r')))
    (cov12 w h r * (cov22 w h r + cov22 w' h' r'))

def kld (w h r w' h' r' : EReal) : EReal :=
  kldOf (covDet w h) (covDet w' h')
    (adjTr (cov11 w h r) (cov12 w h r) (cov22 w h r) (cov11 w' h' r') (cov12 w' h' r') (cov22 w' h' r'))

/-- Result row k of the box pair: 0 the Wasserstein distance, 1 the overlap loss, 2 the divergence. -/
def out (k : Fin 3) (w h r w' h' r' : EReal) : EReal :=
  match k with
  | ⟨0, _⟩ => gwd w h r w' h' r'
  | ⟨1, _⟩ => kfi w h r w' h' r'
  | ⟨2, _⟩ => kld w h r w' h' r'

end GaussBox

end
-- ==== Proof.BodyAtIndex.lean ====
/-
  The kernel's body is one chain of pointwise operations on six blocks: the widths, heights and angles of the two
  boxes. So entry j of every intermediate block is the matching scalar operation on entries j of its operands, and
  the three stored blocks at (p, q) are the three distances of the box pair at (p, q). The chain is followed in its
  own order: the clipped sides and squared half-sides, the two covariances, then each distance from the covariances.
-/
import proofs.«114876_j22668837388898_1_alg».proof.Proof.Gen.KernelIdeal.Frame
import proofs.«114876_j22668837388898_1_alg».proof.Proof.GaussBox
import Idealize.ShloMosaic.Lib.Pipeline.Value
import Idealize.ShloMosaic.Lib.ValueIdx

set_option maxRecDepth 16384

noncomputable section

namespace GaussBox.Body

open Idealize.ShloMosaic Idealize.ShloMosaic.ValueIdx Cert.KernelIdeal Cert.KernelIdeal.Gen GaussBox

/-- A block of 256 × 512 extended reals. -/
abbrev Blk := Vec Ideal S256x512 .f32

variable (x0 x1 x2 x3 x4 x5 : Blk) (j : S256x512.Idx)

/-! ## The sides, the angles and their first functions -/

theorem side_w (x : Blk) : k0_pay5 x j = clamp (x j) := by
  unfold k0_pay5; rw [shapeCast_self]; rfl
theorem side_h (x : Blk) : k0_pay6 x j = clamp (x j) := by
  unfold k0_pay6; rw [shapeCast_self]; rfl
theorem angle (x : Blk) : k0_pay7 x j = x j := by
  unfold k0_pay7; rw [shapeCast_self]
theorem halfsq_w (x : Blk) : k0_pay8 x j = sq (clamp (x j)) := by
  unfold k0_pay8; rw [shapeCast_self]; rfl
theorem halfsq_h (x : Blk) : k0_pay9 x j = sq (clamp (x j)) := by
  unfold k0_pay9; rw [shapeCast_self]; rfl
theorem cos_r (x : Blk) : k0_pay10 x j = Ideal.cos (x j) := by
  unfold k0_pay10 k0_pay4; rw [shapeCast_self]; rfl
theorem sin_r (x : Blk) : k0_pay11 x j = Ideal.sin (x j) := by
  unfold k0_pay11 k0_pay4; rw [shapeCast_self]; rfl
theorem halfsq_cos (x r : Blk) : k0_pay12 x r j = sq (clamp (x j)) * Ideal.cos (r j) := by
  show k0_pay8 x j * k0_pay10 r j = _
  rw [halfsq_w, cos_r]

/-! ## The two covariances -/

/-- The first box's covariance entries and determinant, as blocks. -/
abbrev P11 : FVec Ideal S256x512 .f32 := k0_pay13 (k0_pay9 x1) (k0_pay10 x2) (k0_pay11 x2) (k0_pay12 x0 x2)
abbrev P12 : FVec Ideal S256x512 .f32 := k0_pay14 (k0_pay8 x0) (k0_pay9 x1) (k0_pay10 x2) (k0_pay11 x2)
abbrev P22 : FVec Ideal S256x512 .f32 := k0_pay15 (k0_pay8 x0) (k0_pay9 x1) (k0_pay10 x2) (k0_pay11 x2)
abbrev DP : FVec Ideal S256x512 .f32 := k0_pay16 (k0_pay8 x0) (k0_pay9 x1)
/-- The second box's. -/
abbrev T11 : FVec Ideal S256x512 .f32 := k0_pay21 (k0_pay5 x3) (k0_pay6 x4) (k0_pay7 x5)
abbrev T12 : FVec Ideal S256x512 .f32 := k0_pay22 (k0_pay5 x3) (k0_pay6 x4) (k0_pay7 x5)
abbrev T22 : FVec Ideal S256x512 .f32 := k0_pay23 (k0_pay5 x3) (k0_pay6 x4) (k0_pay7 x5)
abbrev DT : FVec Ideal S256x512 .f32 := k0_pay24 (k0_pay5 x3) (k0_pay6 x4)

theorem P11_at : P11 x0 x1 x2 j = cov11 (x0 j) (x1 j) (x2 j) := by
  show k0_pay12 x0 x2 j * k0_pay10 x2 j + k0_pay9 x1 j * k0_pay11 x2 j * k0_pay11 x2 j = _
  rw [halfsq_cos, cos_r, halfsq_h, sin_r]; rfl
theorem P12_at : P12 x0 x1 x2 j = cov12 (x0 j) (x1 j) (x2 j) := by
  show (k0_pay8 x0 j - k0_pay9 x1 j) * k0_pay11 x2 j * k0_pay10 x2 j = _
  rw [halfsq_w, cos_r, halfsq_h, sin_r]; rfl
theorem P22_at : P22 x0 x1 x2 j = cov22 (x0 j) (x1 j) (x2 j) := by
  show k0_pay8 x0 j * k0_pay11 x2 j * k0_pay11 x2 j + k0_pay9 x1 j * k0_pay10 x2 j * k0_pay10 x2 j = _
  rw [halfsq_w, cos_r, halfsq_h, sin_r]; rfl
theorem DP_at : DP x0 x1 j = covDet (x0 j) (x1 j) := by
  show k0_pay8 x0 j * k0_pay9 x1 j = _
  rw [halfsq_w, halfsq_h]; rfl
theorem T11_at : T11 x3 x4 x5 j = cov11 (x3 j) (x4 j) (x5 j) := by
  show s11 (sq (k0_pay5 x3 j)) (sq (k0_pay6 x4 j)) (Ideal.cos (k0_pay7 x5 j)) (Ideal.sin (k0_pay7 x5 j)) = _
  rw [side_w, side_h, angle]; rfl
theorem T12_at : T12 x3 x4 x5 j = cov12 (x3 j) (x4 j) (x5 j) := by
  show s12 (sq (k0_pay5 x3 j)) (sq (k0_pay6 x4 j)) (Ideal.cos (k0_pay7 x5 j)) (Ideal.sin (k0_pay7 x5 j)) = _
  rw [side_w, side_h, angle]; rfl
theorem T22_at : T22 x3 x4 x5 j = cov22 (x3 j) (x4 j) (x5 j) := by
  show s22 (sq (k0_pay5 x3 j)) (sq (k0_pay6 x4 j)) (Ideal.cos (k0_pay7 x5 j)) (Ideal.sin (k0_pay7 x5 j)) = _
  rw [side_w, side_h, angle]; rfl
theorem DT_at : DT x3 x4 j = covDet (x3 j) (x4 j) := by
  show sq (k0_pay5 x3 j) * sq (k0_pay6 x4 j) = _
  rw [side_w, side_h]; rfl

/-! ## The three distances -/

theorem gwd_at :
    k0_pay28 (k0_pay25 (k0_pay5 x3) (k0_pay6 x4) (k0_pay7 x5) (k0_pay8 x0) (k0_pay9 x1) (k0_pay10 x2) (k0_pay11 x2) (k0_pay12 x0 x2)) (k0_pay26 (k0_pay5 x3) (k0_pay6 x4) (k0_pay8 x0) (k0_pay9 x1)) (k0_pay27 (k0_pay5 x3) (k0_pay6 x4) (k0_pay7 x5) (k0_pay8 x0) (k0_pay9 x1) (k0_pay10 x2) (k0_pay11 x2) (k0_pay12 x0 x2)) j
      = gwd (x0 j) (x1 j) (x2 j) (x3 j) (x4 j) (x5 j) := by
  show gwdOf (trSum (P11 x0 x1 x2 j) (P22 x0 x1 x2 j) (T11 x3 x4 x5 j) (T22 x3 x4 x5 j))
      (detRoot (DP x0 x1 j) (DT x3 x4 j))
      (crossTr (P11 x0 x1 x2 j) (P12 x0 x1 x2 j) (P22 x0 x1 x2 j) (T11 x3 x4 x5 j) (T12 x3 x4 x5 j) (T22 x3 x4 x5 j)
        (detRoot (DP x0 x1 j) (DT x3 x4 j))) = _
  rw [P11_at, P12_at, P22_at, DP_at, T11_at, T12_at, T22_at, DT_at]; rfl

theorem kfi_at :
    k0_pay38 (P11 x0 x1 x2) (P12 x0 x1 x2) (P22 x0 x1 x2) (k0_pay29 (DP x0 x1)) (k0_pay30 (DT x3 x4))
        (k0_pay31 (P11 x0 x1 x2) (T11 x3 x4 x5)) (k0_pay32 (P12 x0 x1 x2) (T12 x3 x4 x5))
        (k0_pay34 (P11 x0 x1 x2) (P12 x0 x1 x2) (P22 x0 x1 x2) (T11 x3 x4 x5) (T12 x3 x4 x5) (T22 x3 x4 x5)) (k0_pay35 (P11 x0 x1 x2) (P12 x0 x1 x2) (P22 x0 x1 x2) (T11 x3 x4 x5) (T12 x3 x4 x5) (T22 x3 x4 x5)) (k0_pay36 (P11 x0 x1 x2) (P12 x0 x1 x2) (P22 x0 x1 x2) (T11 x3 x4 x5) (T12 x3 x4 x5) (T22 x3 x4 x5))
        (k0_pay37 (P12 x0 x1 x2) (P22 x0 x1 x2) (T22 x3 x4 x5)) j
      = kfi (x0 j) (x1 j) (x2 j) (x3 j) (x4 j) (x5 j) := by
  show kfiOf (P11 x0 x1 x2 j) (P12 x0 x1 x2 j) (P22 x0 x1 x2 j) (vol (DP x0 x1 j)) (vol (DT x3 x4 j))
      (P11 x0 x1 x2 j + T11 x3 x4 x5 j) (P12 x0 x1 x2 j + T12 x3 x4 x5 j) (sumDet (P11 x0 x1 x2 j + T11 x3 x4 x5 j) (P12 x0 x1 x2 j + T12 x3 x4 x5 j) (P22 x0 x1 x2 j + T22 x3 x4 x5 j))
      (gain11 (P11 x0 x1 x2 j) (P12 x0 x1 x2 j) (P12 x0 x1 x2 j + T12 x3 x4 x5 j) (P22 x0 x1 x2 j + T22 x3 x4 x5 j) (sumDet (P11 x0 x1 x2 j + T11 x3 x4 x5 j) (P12 x0 x1 x2 j + T12 x3 x4 x5 j) (P22 x0 x1 x2 j + T22 x3 x4 x5 j)))
      (gain12 (P11 x0 x1 x2 j) (P12 x0 x1 x2 j) (P11 x0 x1 x2 j + T11 x3 x4 x5 j) (P12 x0 x1 x2 j + T12 x3 x4 x5 j) (sumDet (P11 x0 x1 x2 j + T11 x3 x4 x5 j) (P12 x0 x1 x2 j + T12 x3 x4 x5 j) (P22 x0 x1 x2 j + T22 x3 x4 x5 j)))
      (P12 x0 x1 x2 j * (P22 x0 x1 x2 j + T22 x3 x4 x5 j)) = _
  rw [P11_at, P12_at, P22_at, DP_at, T11_at, T12_at, T22_at, DT_at]; rfl

/-- The third stored block, before its leading unit axis is added, is the divergence entry by entry. -/
theorem kld_vec :
    k0_pay3 (DP x0 x1) (DT x3 x4) (k0_pay39 (P11 x0 x1 x2) (P12 x0 x1 x2) (P22 x0 x1 x2) (T11 x3 x4 x5) (T12 x3 x4 x5) (T22 x3 x4 x5))
      = shapeCast S1x256x512 (fun j : S256x512.Idx => kld (x0 j) (x1 j) (x2 j) (x3 j) (x4 j) (x5 j))
          shapeCasts_S256x512_S1x256x512 := by
  have h : (fun j : S256x512.Idx => kldOf (DP x0 x1 j) (DT x3 x4 j)
        (adjTr (P11 x0 x1 x2 j) (P12 x0 x1 x2 j) (P22 x0 x1 x2 j) (T11 x3 x4 x5 j) (T12 x3 x4 x5 j) (T22 x3 x4 x5 j)))
      = fun j => kld (x0 j) (x1 j) (x2 j) (x3 j) (x4 j) (x5 j) := by
    funext j
    rw [P11_at, P12_at, P22_at, DP_at, T11_at, T12_at, T22_at, DT_at]; rfl
  rw [← h]; rfl

/-! ## The output block

  The body stores three blocks of 256 × 512 into its [3, 256, 512] output block, one per leading coordinate, and together
  they fill it. Piece k at (0, p, q) sits at (k, p, q) of the block and holds the k-th distance of the box pair whose six
  numbers are the six loaded blocks at (p, q): so the whole output block is one function of the six loads. -/

theorem zero_offsets : (![0, 0] : Fin 2 → Nat) = fun _ => 0 := funext fun a => by fin_cases a <;> rfl

/-- A 256 × 512 block given a leading unit axis: entry (0, p, q) is the block's entry (p, q). -/
theorem lead_unit (v : S256x512.Idx → EReal) (h : S256x512.ShapeCasts S1x256x512) (j : S1x256x512.Idx) (k : S256x512.Idx)
    (h1 : (k 0).val = (j 1).val) (h2 : (k 1).val = (j 2).val) : shapeCast S1x256x512 v h j = v k := by
  refine shapeCast_apply v h j k ?_
  rw [Shape.rowMajor_val_two, Shape.rowMajor_val_three]
  have h0 : (j 0).val < 1 := (j 0).isLt
  show (k 0).val * 512 + (k 1).val = ((j 0).val * 256 + (j 1).val) * 512 + (j 2).val
  omega

/-- The output block as one function of its index: row k of the three distances, of the six loads at (p, q). -/
def blockFn : Vec Ideal S3x256x512 .f32 := fun y =>
  out (y 0) (x0 (ix2 (y 1) (y 2))) (x1 (ix2 (y 1) (y 2))) (x2 (ix2 (y 1) (y 2)))
    (x3 (ix2 (y 1) (y 2))) (x4 (ix2 (y 1) (y 2))) (x5 (ix2 (y 1) (y 2)))

/-- The first piece sits at leading coordinate 0. -/
theorem piece_gwd (j : S1x256x512.Idx) :
    k0_pay1 (k0_pay28 (k0_pay25 (k0_pay5 x3) (k0_pay6 x4) (k0_pay7 x5) (k0_pay8 x0) (k0_pay9 x1) (k0_pay10 x2) (k0_pay11 x2) (k0_pay12 x0 x2)) (k0_pay26 (k0_pay5 x3) (k0_pay6 x4) (k0_pay8 x0) (k0_pay9 x1)) (k0_pay27 (k0_pay5 x3) (k0_pay6 x4) (k0_pay7 x5) (k0_pay8 x0) (k0_pay9 x1) (k0_pay10 x2) (k0_pay11 x2) (k0_pay12 x0 x2))) j
      = blockFn x0 x1 x2 x3 x4 x5 (r0_1.idx j) := by
  have e0 : (r0_1.idx j) 0 = (⟨0, by decide⟩ : Fin 3) := Fin.ext (by
    have h0 : (j 0).val < 1 := (j 0).isLt
    show 0 + 1 * (j 0).val = 0; omega)
  unfold k0_pay1
  rw [lead_unit _ _ j (ix2 ((r0_1.idx j) 1) ((r0_1.idx j) 2))
    (by show 0 + 1 * (j 1).val = (j 1).val; omega) (by show 0 + 1 * (j 2).val = (j 2).val; omega), gwd_at]
  unfold blockFn; rw [e0]; rfl

/-- The second at leading coordinate 1. -/
theorem piece_kfi (j : S1x256x512.Idx) :
    k0_pay2 (k0_pay38 (P11 x0 x1 x2) (P12 x0 x1 x2) (P22 x0 x1 x2) (k0_pay29 (DP x0 x1)) (k0_pay30 (DT x3 x4))
        (k0_pay31 (P11 x0 x1 x2) (T11 x3 x4 x5)) (k0_pay32 (P12 x0 x1 x2) (T12 x3 x4 x5))
        (k0_pay34 (P11 x0 x1 x2) (P12 x0 x1 x2) (P22 x0 x1 x2) (T11 x3 x4 x5) (T12 x3 x4 x5) (T22 x3 x4 x5)) (k0_pay35 (P11 x0 x1 x2) (P12 x0 x1 x2) (P22 x0 x1 x2) (T11 x3 x4 x5) (T12 x3 x4 x5) (T22 x3 x4 x5)) (k0_pay36 (P11 x0 x1 x2) (P12 x0 x1 x2) (P22 x0 x1 x2) (T11 x3 x4 x5) (T12 x3 x4 x5) (T22 x3 x4 x5))
        (k0_pay37 (P12 x0 x1 x2) (P22 x0 x1 x2) (T22 x3 x4 x5))) j
      = blockFn x0 x1 x2 x3 x4 x5 (r0_2.idx j) := by
  have e0 : (r0_2.idx j) 0 = (⟨1, by decide⟩ : Fin 3) := Fin.ext (by
    have h0 : (j 0).val < 1 := (j 0).isLt
    show 1 + 1 * (j 0).val = 1; omega)
  unfold k0_pay2
  rw [lead_unit _ _ j (ix2 ((r0_2.idx j) 1) ((r0_2.idx j) 2))
    (by show 0 + 1 * (j 1).val = (j 1).val; omega) (by show 0 + 1 * (j 2).val = (j 2).val; omega), kfi_at]
  unfold blockFn; rw [e0]; rfl

/-- The third at leading coordinate 2. -/
theorem piece_kld (j : S1x256x512.Idx) :
    k0_pay3 (DP x0 x1) (DT x3 x4) (k0_pay39 (P11 x0 x1 x2) (P12 x0 x1 x2) (P22 x0 x1 x2) (T11 x3 x4 x5) (T12 x3 x4 x5) (T22 x3 x4 x5)) j = blockFn x0 x1 x2 x3 x4 x5 (r0_3.idx j) := by
  have e0 : (r0_3.idx j) 0 = (⟨2, by decide⟩ : Fin 3) := Fin.ext (by
    have h0 : (j 0).val < 1 := (j 0).isLt
    show 2 + 1 * (j 0).val = 2; omega)
  rw [kld_vec, lead_unit _ _ j (ix2 ((r0_3.idx j) 1) ((r0_3.idx j) 2))
    (by show 0 + 1 * (j 1).val = (j 1).val; omega) (by show 0 + 1 * (j 2).val = (j 2).val; omega)]
  unfold blockFn; rw [e0]; rfl

/-- The three pieces fill the block, each with its own row of the one function. -/
theorem block_eq : out0_6 (F := Ideal) x0 x1 x2 x3 x4 x5 = blockFn x0 x1 x2 x3 x4 x5 := by
  funext y
  unfold out0_6
  simp only [View.ld_unit_zero (S := S256x512) zero_offsets]
  refine View.canon_apply_of_pieces (Val := Elt Ideal) (blockFn x0 x1 x2 x3 x4 x5) _ (fun p hp j => ?_) y (cover0_6 _ _ _ y)
  simp only [List.mem_cons, List.mem_nil_iff, or_false] at hp
  rcases hp with rfl | rfl | rfl
  · exact piece_kld x0 x1 x2 x3 x4 x5 j
  · exact piece_kfi x0 x1 x2 x3 x4 x5 j
  · exact piece_gwd x0 x1 x2 x3 x4 x5 j

/-- Entry (k, p, q) of the output block is distance k of the six loads at (p, q). -/
theorem body_at (k : Fin 3) (p : Fin 256) (q : Fin 512) :
    out0_6 (F := Ideal) x0 x1 x2 x3 x4 x5 (ix3 k p q)
      = out k (x0 (ix2 p q)) (x1 (ix2 p q)) (x2 (ix2 p q)) (x3 (ix2 p q)) (x4 (ix2 p q)) (x5 (ix2 p q)) := by
  rw [block_eq]; rfl

end GaussBox.Body

end
-- ==== Proof.RowwiseSpec.lean ====
/- The result of the program named as ONE function of its two argument arrays.
   Both arguments are arrays of 8388608 rows of three entries; the result has three rows of 8388608 entries.
   Entry (k, n) of the result is a function, depending on k only through its first argument, of the three entries of
   row n of the first argument and the three entries of row n of the second. -/
import Idealize.ShloMosaic.PureOps.Ideal
import Idealize.ShloMosaic.Lib.ValueIdx

noncomputable section

namespace Cert.KernelIdeal.RowLayout

open Idealize.ShloMosaic Idealize.ShloMosaic.ValueIdx

/-- Entry `(k, n)` of the result: `f k` of row `n` of the first argument (its three entries, in order) and of row `n`
    of the second (its three entries, in order). -/
def G (f : Fin 3 → EReal → EReal → EReal → EReal → EReal → EReal → EReal)
    (a0 a1 : (⟨2, ![8388608, 3]⟩ : Shape).Idx → EReal) : (⟨2, ![3, 8388608]⟩ : Shape).Idx → EReal :=
  fun i => f (i 0)
    (a0 (ix2 (i 1 : Fin 8388608) (0 : Fin 3))) (a0 (ix2 (i 1 : Fin 8388608) (1 : Fin 3))) (a0 (ix2 (i 1 : Fin 8388608) (2 : Fin 3)))
    (a1 (ix2 (i 1 : Fin 8388608) (0 : Fin 3))) (a1 (ix2 (i 1 : Fin 8388608) (1 : Fin 3))) (a1 (ix2 (i 1 : Fin 8388608) (2 : Fin 3)))

/-- `G` at the index with coordinates `k`, `n`. -/
theorem G_apply (f : Fin 3 → EReal → EReal → EReal → EReal → EReal → EReal → EReal)
    (a0 a1 : (⟨2, ![8388608, 3]⟩ : Shape).Idx → EReal) (k : Fin 3) (n : Fin 8388608) :
    G f a0 a1 (ix2 k n) = f k (a0 (ix2 n (0 : Fin 3))) (a0 (ix2 n (1 : Fin 3))) (a0 (ix2 n (2 : Fin 3)))
      (a1 (ix2 n (0 : Fin 3))) (a1 (ix2 n (1 : Fin 3))) (a1 (ix2 n (2 : Fin 3))) := rfl

/-- The same function one step earlier: over the six arrays of 16384 rows of 512 entries that hold the six columns,
    entry `(k, r, q)` of an array of three such planes is `f k` of the six arrays' entries `(r, q)`. -/
def H (f : Fin 3 → EReal → EReal → EReal → EReal → EReal → EReal → EReal)
    (b0 b1 b2 b3 b4 b5 : (⟨2, ![16384, 512]⟩ : Shape).Idx → EReal) : (⟨3, ![3, 16384, 512]⟩ : Shape).Idx → EReal :=
  fun i => f (i 0)
    (b0 (ix2 (i 1 : Fin 16384) (i 2 : Fin 512))) (b1 (ix2 (i 1 : Fin 16384) (i 2 : Fin 512))) (b2 (ix2 (i 1 : Fin 16384) (i 2 : Fin 512)))
    (b3 (ix2 (i 1 : Fin 16384) (i 2 : Fin 512))) (b4 (ix2 (i 1 : Fin 16384) (i 2 : Fin 512))) (b5 (ix2 (i 1 : Fin 16384) (i 2 : Fin 512)))

/-- `H` at the index with coordinates `k`, `r`, `q`. -/
theorem H_apply (f : Fin 3 → EReal → EReal → EReal → EReal → EReal → EReal → EReal)
    (b0 b1 b2 b3 b4 b5 : (⟨2, ![16384, 512]⟩ : Shape).Idx → EReal) (k : Fin 3) (r : Fin 16384) (q : Fin 512) :
    H f b0 b1 b2 b3 b4 b5 (ix3 k r q) = f k (b0 (ix2 r q)) (b1 (ix2 r q)) (b2 (ix2 r q)) (b3 (ix2 r q)) (b4 (ix2 r q)) (b5 (ix2 r q)) := rfl

end Cert.KernelIdeal.RowLayout

end
-- ==== Proof.BlockRows.lean ====
/- One grid point of the region. At point t each of the six input windows holds rows 256 t … 256 t + 255 of its
   array of 16384 rows of 512 entries, and the output window is written back to rows 256 t … 256 t + 255 of each of
   the three planes of the output array. So if the body computes entry (k, p, q) of its output block as f k of the six
   input blocks' entries (p, q), what point t writes back is block t of ONE function of the six arrays. -/
import proofs.«114876_j22668837388898_1_alg».proof.Proof.Gen.KernelIdeal.Frame
import proofs.«114876_j22668837388898_1_alg».proof.Proof.RowwiseSpec
import Idealize.ShloMosaic.Lib.Pipeline.Value
import Idealize.ShloMosaic.Lib.ValueIdx

noncomputable section

namespace Cert.KernelIdeal.RowLayout

open Cert.KernelIdeal Cert.KernelIdeal.Gen Idealize.ShloMosaic Idealize.ShloMosaic.TcCoe Idealize.SL.Sem
open Idealize.ShloMosaic.ValueIdx
open Idealize.ShloMosaic.Pipeline (Dat)

/-- The printed index maps over the 64 grid points: every input window is at block row `t`, block column 0; the output
    window at plane block 0, block row `t`, block column 0. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 3) = 0 ∧ win0_6.index t (1 : Fin 3) = t.val ∧ win0_6.index t (2 : Fin 3) = 0) :=
  (by decide +kernel : ∀ t : Fin grid0.N, _)

variable (m : (ℓ : Loc nD τ sig) → Buf (Elt Ideal) ℓ)

/-- Input window 0's block at point `t` is rows `256 t … 256 t + 255` of its array: entry `y` of the block is the array's
    entry at row `256 t + y 0`, column `y 1`. -/
theorem block0_apply (c : Dev nD) (t : Fin cfg0.N) (y : S256x512.Idx) (i : S16384x512.Idx)
    (h0 : (i 0).val = t.val * 256 + (y 0).val) (h1 : (i 1).val = (y 1).val) :
    (iblk m c 0 t : Vec Ideal S256x512 .f32) y = (V m c main_v2 : S16384x512.Idx → EReal) i := by
  have h := index_facts t
  have e0 : win0_0.index t (0 : Fin 2) = t.val := (h.1).1
  have e1 : win0_0.index t (1 : Fin 2) = 0 := (h.1).2
  unfold iblk
  rw [View.read_apply]
  show V m c main_v2 _ = V m c main_v2 _
  refine congrArg (V m c main_v2) ?_
  funext a
  apply Fin.ext
  match a with
  | ⟨0, _⟩ => show win0_0.index t (0 : Fin 2) * 256 + 1 * (y 0).val = (i 0).val; rw [e0, h0]; omega
  | ⟨1, _⟩ => show win0_0.index t (1 : Fin 2) * 512 + 1 * (y 1).val = (i 1).val; rw [e1, h1]; omega

/-- Input window 1's block at point `t` is rows `256 t … 256 t + 255` of its array: entry `y` of the block is the array's
    entry at row `256 t + y 0`, column `y 1`. -/
theorem block1_apply (c : Dev nD) (t : Fin cfg0.N) (y : S256x512.Idx) (i : S16384x512.Idx)
    (h0 : (i 0).val = t.val * 256 + (y 0).val) (h1 : (i 1).val = (y 1).val) :
    (iblk m c 1 t : Vec Ideal S256x512 .f32) y = (V m c main_v5 : S16384x512.Idx → EReal) i := by
  have h := index_facts t
  have e0 : win0_1.index t (0 : Fin 2) = t.val := (h.2.1).1
  have e1 : win0_1.index t (1 : Fin 2) = 0 := (h.2.1).2
  unfold iblk
  rw [View.read_apply]
  show V m c main_v5 _ = V m c main_v5 _
  refine congrArg (V m c main_v5) ?_
  funext a
  apply Fin.ext
  match a with
  | ⟨0, _⟩ => show win0_1.index t (0 : Fin 2) * 256 + 1 * (y 0).val = (i 0).val; rw [e0, h0]; omega
  | ⟨1, _⟩ => show win0_1.index t (1 : Fin 2) * 512 + 1 * (y 1).val = (i 1).val; rw [e1, h1]; omega

/-- Input window 2's block at point `t` is rows `256 t … 256 t + 255` of its array: entry `y` of the block is the array's
    entry at row `256 t + y 0`, column `y 1`. -/
theorem block2_apply (c : Dev nD) (t : Fin cfg0.N) (y : S256x512.Idx) (i : S16384x512.Idx)
    (h0 : (i 0).val = t.val * 256 + (y 0).val) (h1 : (i 1).val = (y 1).val) :
    (iblk m c 2 t : Vec Ideal S256x512 .f32) y = (V m c main_v8 : S16384x512.Idx → EReal) i := by
  have h := index_facts t
  have e0 : win0_2.index t (0 : Fin 2) = t.val := (h.2.2.1).1
  have e1 : win0_2.index t (1 : Fin 2) = 0 := (h.2.2.1).2
  unfold iblk
  rw [View.read_apply]
  show V m c main_v8 _ = V m c main_v8 _
  refine congrArg (V m c main_v8) ?_
  funext a
  apply Fin.ext
  match a with
  | ⟨0, _⟩ => show win0_2.index t (0 : Fin 2) * 256 + 1 * (y 0).val = (i 0).val; rw [e0, h0]; omega
  | ⟨1, _⟩ => show win0_2.index t (1 : Fin 2) * 512 + 1 * (y 1).val = (i 1).val; rw [e1, h1]; omega

/-- Input window 3's block at point `t` is rows `256 t … 256 t + 255` of its array: entry `y` of the block is the array's
    entry at row `256 t + y 0`, column `y 1`. -/
theorem block3_apply (c : Dev nD) (t : Fin cfg0.N) (y : S256x512.Idx) (i : S16384x512.Idx)
    (h0 : (i 0).val = t.val * 256 + (y 0).val) (h1 : (i 1).val = (y 1).val) :
    (iblk m c 3 t : Vec Ideal S256x512 .f32) y = (V m c main_v11 : S16384x512.Idx → EReal) i := by
  have h := index_facts t
  have e0 : win0_3.index t (0 : Fin 2) = t.val := (h.2.2.2.1).1
  have e1 : win0_3.index t (1 : Fin 2) = 0 := (h.2.2.2.1).2
  unfold iblk
  rw [View.read_apply]
  show V m c main_v11 _ = V m c main_v11 _
  refine congrArg (V m c main_v11) ?_
  funext a
  apply Fin.ext
  match a with
  | ⟨0, _⟩ => show win0_3.index t (0 : Fin 2) * 256 + 1 * (y 0).val = (i 0).val; rw [e0, h0]; omega
  | ⟨1, _⟩ => show win0_3.index t (1 : Fin 2) * 512 + 1 * (y 1).val = (i 1).val; rw [e1, h1]; omega

/-- Input window 4's block at point `t` is rows `256 t … 256 t + 255` of its array: entry `y` of the block is the array's
    entry at row `256 t + y 0`, column `y 1`. -/
theorem block4_apply (c : Dev nD) (t : Fin cfg0.N) (y : S256x512.Idx) (i : S16384x512.Idx)
    (h0 : (i 0).val = t.val * 256 + (y 0).val) (h1 : (i 1).val = (y 1).val) :
    (iblk m c 4 t : Vec Ideal S256x512 .f32) y = (V m c main_v14 : S16384x512.Idx → EReal) i := by
  have h := index_facts t
  have e0 : win0_4.index t (0 : Fin 2) = t.val := (h.2.2.2.2.1).1
  have e1 : win0_4.index t (1 : Fin 2) = 0 := (h.2.2.2.2.1).2
  unfold iblk
  rw [View.read_apply]
  show V m c main_v14 _ = V m c main_v14 _
  refine congrArg (V m c main_v14) ?_
  funext a
  apply Fin.ext
  match a with
  | ⟨0, _⟩ => show win0_4.index t (0 : Fin 2) * 256 + 1 * (y 0).val = (i 0).val; rw [e0, h0]; omega
  | ⟨1, _⟩ => show win0_4.index t (1 : Fin 2) * 512 + 1 * (y 1).val = (i 1).val; rw [e1, h1]; omega

/-- Input window 5's block at point `t` is rows `256 t … 256 t + 255` of its array: entry `y` of the block is the array's
    entry at row `256 t + y 0`, column `y 1`. -/
theorem block5_apply (c : Dev nD) (t : Fin cfg0.N) (y : S256x512.Idx) (i : S16384x512.Idx)
    (h0 : (i 0).val = t.val * 256 + (y 0).val) (h1 : (i 1).val = (y 1).val) :
    (iblk m c 5 t : Vec Ideal S256x512 .f32) y = (V m c main_v17 : S16384x512.Idx → EReal) i := by
  have h := index_facts t
  have e0 : win0_5.index t (0 : Fin 2) = t.val := (h.2.2.2.2.2.1).1
  have e1 : win0_5.index t (1 : Fin 2) = 0 := (h.2.2.2.2.2.1).2
  unfold iblk
  rw [View.read_apply]
  show V m c main_v17 _ = V m c main_v17 _
  refine congrArg (V m c main_v17) ?_
  funext a
  apply Fin.ext
  match a with
  | ⟨0, _⟩ => show win0_5.index t (0 : Fin 2) * 256 + 1 * (y 0).val = (i 0).val; rw [e0, h0]; omega
  | ⟨1, _⟩ => show win0_5.index t (1 : Fin 2) * 512 + 1 * (y 1).val = (i 1).val; rw [e1, h1]; omega

/-- At one point, over any six blocks and six arrays related as the windows' blocks are to their arrays (block entry
    `y` is array entry `(256 t + y 0, y 1)`): entry `y` of the body's output block is entry `i` of `H` of the arrays,
    where `i` is `y` moved `256 t` rows down its plane. -/
theorem point_eq (f : Fin 3 → EReal → EReal → EReal → EReal → EReal → EReal → EReal)
    (hbody : ∀ (x0 x1 x2 x3 x4 x5 : Vec Ideal S256x512 .f32) (k : Fin 3) (p : Fin 256) (q : Fin 512),
      out0_6 (F := Ideal) x0 x1 x2 x3 x4 x5 (ix3 k p q)
        = f k (x0 (ix2 p q)) (x1 (ix2 p q)) (x2 (ix2 p q)) (x3 (ix2 p q)) (x4 (ix2 p q)) (x5 (ix2 p q)))
    (x0 x1 x2 x3 x4 x5 : Vec Ideal S256x512 .f32) (b0 b1 b2 b3 b4 b5 : S16384x512.Idx → EReal) (tv : Nat)
    (hx0 : ∀ (y : S256x512.Idx) (i : S16384x512.Idx), (i 0).val = tv * 256 + (y 0).val → (i 1).val = (y 1).val → x0 y = b0 i)
    (hx1 : ∀ (y : S256x512.Idx) (i : S16384x512.Idx), (i 0).val = tv * 256 + (y 0).val → (i 1).val = (y 1).val → x1 y = b1 i)
    (hx2 : ∀ (y : S256x512.Idx) (i : S16384x512.Idx), (i 0).val = tv * 256 + (y 0).val → (i 1).val = (y 1).val → x2 y = b2 i)
    (hx3 : ∀ (y : S256x512.Idx) (i : S16384x512.Idx), (i 0).val = tv * 256 + (y 0).val → (i 1).val = (y 1).val → x3 y = b3 i)
    (hx4 : ∀ (y : S256x512.Idx) (i : S16384x512.Idx), (i 0).val = tv * 256 + (y 0).val → (i 1).val = (y 1).val → x4 y = b4 i)
    (hx5 : ∀ (y : S256x512.Idx) (i : S16384x512.Idx), (i 0).val = tv * 256 + (y 0).val → (i 1).val = (y 1).val → x5 y = b5 i)
    (y : S3x256x512.Idx) (i : S3x16384x512.Idx)
    (h0 : (i 0).val = (y 0).val) (h1 : (i 1).val = tv * 256 + (y 1).val) (h2 : (i 2).val = (y 2).val) :
    out0_6 (F := Ideal) x0 x1 x2 x3 x4 x5 y = H f b0 b1 b2 b3 b4 b5 i := by
  obtain ⟨k, p, q, rfl⟩ : ∃ (k : Fin 3) (p : Fin 256) (q : Fin 512), y = ix3 k p q := ⟨y 0, y 1, y 2, eq_ix3 y⟩
  obtain ⟨k', r, q', rfl⟩ : ∃ (k' : Fin 3) (r : Fin 16384) (q' : Fin 512), i = ix3 k' r q' := ⟨i 0, i 1, i 2, eq_ix3 i⟩
  have hk : k' = k := Fin.ext h0
  have hq : q' = q := Fin.ext h2
  subst hk hq
  have hr : r.val = tv * 256 + p.val := h1
  rw [hbody, H_apply,
    hx0 (ix2 p q') (ix2 r q') hr rfl, hx1 (ix2 p q') (ix2 r q') hr rfl, hx2 (ix2 p q') (ix2 r q') hr rfl,
    hx3 (ix2 p q') (ix2 r q') hr rfl, hx4 (ix2 p q') (ix2 r q') hr rfl, hx5 (ix2 p q') (ix2 r q') hr rfl]

/-- WHAT POINT `t` WRITES BACK is block `t` of `H` of the six arrays as the region finds them. -/
theorem flushed_eq (f : Fin 3 → EReal → EReal → EReal → EReal → EReal → EReal → EReal)
    (hbody : ∀ (x0 x1 x2 x3 x4 x5 : Vec Ideal S256x512 .f32) (k : Fin 3) (p : Fin 256) (q : Fin 512),
      out0_6 (F := Ideal) x0 x1 x2 x3 x4 x5 (ix3 k p q)
        = f k (x0 (ix2 p q)) (x1 (ix2 p q)) (x2 (ix2 p q)) (x3 (ix2 p q)) (x4 (ix2 p q)) (x5 (ix2 p q)))
    (c : Dev nD) (t : Fin cfg0.N) :
    (dats m 0 c).flushed 6 t = ((cfg0.win 6).blk t).view.read (Elt Ideal)
      (H f (V m c main_v2) (V m c main_v5) (V m c main_v8) (V m c main_v11) (V m c main_v14) (V m c main_v17)) := by
  show (cfg0.win 6).cut (grid0.coords t) ((dats m 0 c).after 6 t) = _
  rw [after0_6]
  have h := index_facts t
  have e0 : win0_6.index t (0 : Fin 3) = 0 := h.2.2.2.2.2.2.1
  have e1 : win0_6.index t (1 : Fin 3) = t.val := h.2.2.2.2.2.2.2.1
  have e2 : win0_6.index t (2 : Fin 3) = 0 := h.2.2.2.2.2.2.2.2
  funext j
  show out0_6 (F := Ideal) (iblk m c 0 t) (iblk m c 1 t) (iblk m c 2 t) (iblk m c 3 t) (iblk m c 4 t) (iblk m c 5 t) ((cfg0.win 6).xinj (grid0.coords t) j)
    = H f (V m c main_v2) (V m c main_v5) (V m c main_v8) (V m c main_v11) (V m c main_v14) (V m c main_v17) (((cfg0.win 6).blk t).view.emb j)
  refine point_eq f hbody (iblk m c 0 t) (iblk m c 1 t) (iblk m c 2 t) (iblk m c 3 t) (iblk m c 4 t) (iblk m c 5 t)
    (V m c main_v2) (V m c main_v5) (V m c main_v8) (V m c main_v11) (V m c main_v14) (V m c main_v17) t.val
    (block0_apply m c t) (block1_apply m c t) (block2_apply m c t) (block3_apply m c t) (block4_apply m c t) (block5_apply m c t)
    ((cfg0.win 6).xinj (grid0.coords t) j) (((cfg0.win 6).blk t).view.emb j) ?_ ?_ ?_
  · show win0_6.index t (0 : Fin 3) * 3 + 1 * (j 0).val = (j 0).val
    rw [e0]; omega
  · show win0_6.index t (1 : Fin 3) * 256 + 1 * (j 1).val = t.val * 256 + (j 1).val
    rw [e1]; omega
  · show win0_6.index t (2 : Fin 3) * 512 + 1 * (j 2).val = (j 2).val
    rw [e2]; omega

end Cert.KernelIdeal.RowLayout

end
-- ==== Proof.RowCover.lean ====
/- The 64 points' output blocks tile the output array of three planes of 16384 rows of 512 entries: the point that
   covers row r of a plane is r / 256. So after the region the array is `H` of the six arrays the region read. -/
import proofs.«114876_j22668837388898_1_alg».proof.Proof.BlockRows

noncomputable section

namespace Cert.KernelIdeal.RowLayout

open Cert.KernelIdeal Cert.KernelIdeal.Gen Idealize.ShloMosaic Idealize.ShloMosaic.TcCoe Idealize.SL.Sem
open Idealize.ShloMosaic.ValueIdx
open Idealize.ShloMosaic.Pipeline (Dat)

/-- An index of the output array is in point `t`'s block iff each coordinate is in the block's range on its axis. -/
theorem mem_block (t : Fin cfg0.N) (i : S3x16384x512.Idx) :
    i ∈ ((cfg0.win 6).blk t).view.set ↔ ∀ a : Fin 3, win0_6.index t a * S3x256x512.size a ≤ (i a).val ∧ (i a).val < win0_6.index t a * S3x256x512.size a + S3x256x512.size a := by
  show i ∈ ((View.whole main_v18).slice (win0_6.rect t)).set ↔ _
  rw [View.set_slice_whole, Rect.mem_set_unit]
  exact Iff.rfl

/-- Every index of the output array is in the block of the point `(i 1) / 256`, which writes back. -/
theorem cover (i : S3x16384x512.Idx) :
    ∃ t : Fin cfg0.N, (cfg0.win 6).flush t = true ∧ i ∈ ((cfg0.win 6).blk t).view.set := by
  have hi0 : (i 0).val < 3 := (i 0).isLt
  have hi1 : (i 1).val < 16384 := (i 1).isLt
  have hi2 : (i 2).val < 512 := (i 2).isLt
  have hN : cfg0.N = 64 := N_0
  obtain ⟨t, ht⟩ : ∃ t : Fin cfg0.N, t.val = (i 1).val / 256 := ⟨⟨(i 1).val / 256, by rw [hN]; omega⟩, rfl⟩
  have h := index_facts t
  have e0 : win0_6.index t (0 : Fin 3) = 0 := h.2.2.2.2.2.2.1
  have e1 : win0_6.index t (1 : Fin 3) = t.val := h.2.2.2.2.2.2.2.1
  have e2 : win0_6.index t (2 : Fin 3) = 0 := h.2.2.2.2.2.2.2.2
  refine ⟨t, flush0_6 t, ?_⟩
  rw [mem_block]
  intro a
  match a with
  | ⟨0, _⟩ => show win0_6.index t (0 : Fin 3) * 3 ≤ (i 0).val ∧ (i 0).val < win0_6.index t (0 : Fin 3) * 3 + 3; rw [e0]; omega
  | ⟨1, _⟩ => show win0_6.index t (1 : Fin 3) * 256 ≤ (i 1).val ∧ (i 1).val < win0_6.index t (1 : Fin 3) * 256 + 256; rw [e1, ht]; omega
  | ⟨2, _⟩ => show win0_6.index t (2 : Fin 3) * 512 ≤ (i 2).val ∧ (i 2).val < win0_6.index t (2 : Fin 3) * 512 + 512; rw [e2]; omega

variable (m : (ℓ : Loc nD τ sig) → Buf (Elt Ideal) ℓ)

/-- THE OUTPUT ARRAY after the region: `H` of the six arrays the region read. -/
theorem region_array (f : Fin 3 → EReal → EReal → EReal → EReal → EReal → EReal → EReal)
    (hbody : ∀ (x0 x1 x2 x3 x4 x5 : Vec Ideal S256x512 .f32) (k : Fin 3) (p : Fin 256) (q : Fin 512),
      out0_6 (F := Ideal) x0 x1 x2 x3 x4 x5 (ix3 k p q)
        = f k (x0 (ix2 p q)) (x1 (ix2 p q)) (x2 (ix2 p q)) (x3 (ix2 p q)) (x4 (ix2 p q)) (x5 (ix2 p q)))
    (c : Dev nD) :
    (dats m 0 c).arrAt 6 cfg0.N
      = H f (V m c main_v2) (V m c main_v5) (V m c main_v8) (V m c main_v11) (V m c main_v14) (V m c main_v17) :=
  (dats m 0 c).arrAt_eq_of_cover 6
    (H f (V m c main_v2) (V m c main_v5) (V m c main_v8) (V m c main_v11) (V m c main_v14) (V m c main_v17))
    (fun t _ => flushed_eq m f hbody c t) cover

end Cert.KernelIdeal.RowLayout

end
-- ==== Proof.StagedColumns.lean ====
/- The six arrays the region reads are the six columns of the two arguments, each flattened and laid out again
   row-major as 16384 rows of 512 entries: entry (r, q) of the array holding column j of an argument is the
   argument's entry (512 r + q, j). -/
import proofs.«114876_j22668837388898_1_alg».proof.Proof.Gen.KernelIdeal.Frame
import Idealize.ShloMosaic.Lib.Pipeline.Value
import Idealize.ShloMosaic.Lib.ValueIdx

noncomputable section

namespace Cert.KernelIdeal.RowLayout

open Cert.KernelIdeal Cert.KernelIdeal.Gen Idealize.ShloMosaic Idealize.ShloMosaic.TcCoe Idealize.SL.Sem
open Idealize.ShloMosaic.ValueIdx
open Idealize.ShloMosaic.Pipeline (Dat)

/-- Column `j` of an array of 8388608 rows of three entries (a slice of width one starting at column `j`), flattened
    to 8388608 entries and laid out row-major as 16384 rows of 512: its entry `(r, q)` is the array's entry `(n, j)`
    with `n = 512 r + q`, since a change of shape keeps the row-major position. -/
theorem column_as_rows {α : Type} (a : S8388608x3.Idx → α) (j : Fin 3) (off : Fin 2 → Nat) (hoff0 : off 0 = 0) (hoff1 : off 1 = j.val)
    (h1 : S8388608x3.Slices off S8388608x1) (h2 : S8388608x1.ShapeCasts S8388608) (h3 : S8388608.ShapeCasts S16384x512)
    (r : Fin 16384) (q : Fin 512) (n : Fin 8388608) (hn : n.val = r.val * 512 + q.val) :
    shapeCast S16384x512 (shapeCast S8388608 (extractStridedSlice S8388608x1 off a h1) h2) h3 (ix2 r q) = a (ix2 n j) := by
  refine (shapeCast_apply _ h3 (ix2 r q) (ix1 n) ?_).trans ?_
  · rw [Shape.rowMajor_val_one, Shape.rowMajor_val_two]
    show n.val = r.val * 512 + q.val
    exact hn
  refine (shapeCast_apply _ h2 (ix1 n) (ix2 n (0 : Fin 1)) ?_).trans ?_
  · rw [Shape.rowMajor_val_two, Shape.rowMajor_val_one]
    show n.val * 1 + 0 = n.val
    omega
  refine extractStridedSlice_apply off a h1 (ix2 n (0 : Fin 1)) (ix2 n j) fun b => ?_
  match b with
  | ⟨0, _⟩ => show n.val = off 0 + n.val; omega
  | ⟨1, _⟩ => show j.val = off 1 + 0; omega

variable (m : (ℓ : Loc nD τ sig) → Buf (Elt Ideal) ℓ)

/-- The array holding column 0 of the first argument, as the region finds it: entry `(r, q)` is the argument's entry `(512 r + q, 0)`. -/
theorem staged_main_v2 (c : Dev nD) (r : Fin 16384) (q : Fin 512) (n : Fin 8388608) (hn : n.val = r.val * 512 + q.val) :
    (V m c main_v2 : S16384x512.Idx → EReal) (ix2 r q) = (m ((c.tc : Thread nD τ).loc main_arg0) : S8388608x3.Idx → EReal) (ix2 n (0 : Fin 3)) := by
  have e : (V m c main_v2 : S16384x512.Idx → EReal)
      = shapeCast S16384x512 (shapeCast S8388608 (extractStridedSlice S8388608x1 ![0, 0] (m ((c.tc : Thread nD τ).loc main_arg0) : S8388608x3.Idx → EReal) slices_S8388608x3_S8388608x1_0_0) shapeCasts_S8388608x1_S8388608) shapeCasts_S8388608_S16384x512 := by
    show StableHlo.after hostOps0 (fun b => m (c, b)) (Proc.devRef .tc main_v2) = _
    after_results
    rfl
  rw [e]
  exact column_as_rows _ (0 : Fin 3) ![0, 0] rfl rfl _ _ _ r q n hn

/-- The array holding column 1 of the first argument, as the region finds it: entry `(r, q)` is the argument's entry `(512 r + q, 1)`. -/
theorem staged_main_v5 (c : Dev nD) (r : Fin 16384) (q : Fin 512) (n : Fin 8388608) (hn : n.val = r.val * 512 + q.val) :
    (V m c main_v5 : S16384x512.Idx → EReal) (ix2 r q) = (m ((c.tc : Thread nD τ).loc main_arg0) : S8388608x3.Idx → EReal) (ix2 n (1 : Fin 3)) := by
  have e : (V m c main_v5 : S16384x512.Idx → EReal)
      = shapeCast S16384x512 (shapeCast S8388608 (extractStridedSlice S8388608x1 ![0, 1] (m ((c.tc : Thread nD τ).loc main_arg0) : S8388608x3.Idx → EReal) slices_S8388608x3_S8388608x1_0_1) shapeCasts_S8388608x1_S8388608) shapeCasts_S8388608_S16384x512 := by
    show StableHlo.after hostOps0 (fun b => m (c, b)) (Proc.devRef .tc main_v5) = _
    after_results
    rfl
  rw [e]
  exact column_as_rows _ (1 : Fin 3) ![0, 1] rfl rfl _ _ _ r q n hn

/-- The array holding column 2 of the first argument, as the region finds it: entry `(r, q)` is the argument's entry `(512 r + q, 2)`. -/
theorem staged_main_v8 (c : Dev nD) (r : Fin 16384) (q : Fin 512) (n : Fin 8388608) (hn : n.val = r.val * 512 + q.val) :
    (V m c main_v8 : S16384x512.Idx → EReal) (ix2 r q) = (m ((c.tc : Thread nD τ).loc main_arg0) : S8388608x3.Idx → EReal) (ix2 n (2 : Fin 3)) := by
  have e : (V m c main_v8 : S16384x512.Idx → EReal)
      = shapeCast S16384x512 (shapeCast S8388608 (extractStridedSlice S8388608x1 ![0, 2] (m ((c.tc : Thread nD τ).loc main_arg0) : S8388608x3.Idx → EReal) slices_S8388608x3_S8388608x1_0_2) shapeCasts_S8388608x1_S8388608) shapeCasts_S8388608_S16384x512 := by
    show StableHlo.after hostOps0 (fun b => m (c, b)) (Proc.devRef .tc main_v8) = _
    after_results
    rfl
  rw [e]
  exact column_as_rows _ (2 : Fin 3) ![0, 2] rfl rfl _ _ _ r q n hn

/-- The array holding column 0 of the second argument, as the region finds it: entry `(r, q)` is the argument's entry `(512 r + q, 0)`. -/
theorem staged_main_v11 (c : Dev nD) (r : Fin 16384) (q : Fin 512) (n : Fin 8388608) (hn : n.val = r.val * 512 + q.val) :
    (V m c main_v11 : S16384x512.Idx → EReal) (ix2 r q) = (m ((c.tc : Thread nD τ).loc main_arg1) : S8388608x3.Idx → EReal) (ix2 n (0 : Fin 3)) := by
  have e : (V m c main_v11 : S16384x512.Idx → EReal)
      = shapeCast S16384x512 (shapeCast S8388608 (extractStridedSlice S8388608x1 ![0, 0] (m ((c.tc : Thread nD τ).loc main_arg1) : S8388608x3.Idx → EReal) slices_S8388608x3_S8388608x1_0_0) shapeCasts_S8388608x1_S8388608) shapeCasts_S8388608_S16384x512 := by
    show StableHlo.after hostOps0 (fun b => m (c, b)) (Proc.devRef .tc main_v11) = _
    after_results
    rfl
  rw [e]
  exact column_as_rows _ (0 : Fin 3) ![0, 0] rfl rfl _ _ _ r q n hn

/-- The array holding column 1 of the second argument, as the region finds it: entry `(r, q)` is the argument's entry `(512 r + q, 1)`. -/
theorem staged_main_v14 (c : Dev nD) (r : Fin 16384) (q : Fin 512) (n : Fin 8388608) (hn : n.val = r.val * 512 + q.val) :
    (V m c main_v14 : S16384x512.Idx → EReal) (ix2 r q) = (m ((c.tc : Thread nD τ).loc main_arg1) : S8388608x3.Idx → EReal) (ix2 n (1 : Fin 3)) := by
  have e : (V m c main_v14 : S16384x512.Idx → EReal)
      = shapeCast S16384x512 (shapeCast S8388608 (extractStridedSlice S8388608x1 ![0, 1] (m ((c.tc : Thread nD τ).loc main_arg1) : S8388608x3.Idx → EReal) slices_S8388608x3_S8388608x1_0_1) shapeCasts_S8388608x1_S8388608) shapeCasts_S8388608_S16384x512 := by
    show StableHlo.after hostOps0 (fun b => m (c, b)) (Proc.devRef .tc main_v14) = _
    after_results
    rfl
  rw [e]
  exact column_as_rows _ (1 : Fin 3) ![0, 1] rfl rfl _ _ _ r q n hn

/-- The array holding column 2 of the second argument, as the region finds it: entry `(r, q)` is the argument's entry `(512 r + q, 2)`. -/
theorem staged_main_v17 (c : Dev nD) (r : Fin 16384) (q : Fin 512) (n : Fin 8388608) (hn : n.val = r.val * 512 + q.val) :
    (V m c main_v17 : S16384x512.Idx → EReal) (ix2 r q) = (m ((c.tc : Thread nD τ).loc main_arg1) : S8388608x3.Idx → EReal) (ix2 n (2 : Fin 3)) := by
  have e : (V m c main_v17 : S16384x512.Idx → EReal)
      = shapeCast S16384x512 (shapeCast S8388608 (extractStridedSlice S8388608x1 ![0, 2] (m ((c.tc : Thread nD τ).loc main_arg1) : S8388608x3.Idx → EReal) slices_S8388608x3_S8388608x1_0_2) shapeCasts_S8388608x1_S8388608) shapeCasts_S8388608_S16384x512 := by
    show StableHlo.after hostOps0 (fun b => m (c, b)) (Proc.devRef .tc main_v17) = _
    after_results
    rfl
  rw [e]
  exact column_as_rows _ (2 : Fin 3) ![0, 2] rfl rfl _ _ _ r q n hn

end Cert.KernelIdeal.RowLayout

end
-- ==== Proof.ResultRows.lean ====
/- The program's result. After the region one change of shape lays the three planes of 16384 rows of 512 entries
   out as three rows of 8388608 entries: entry (k, n) of the result is entry (k, n / 512, n % 512) of the planes, which
   is f k of the six arrays' entries (n / 512, n % 512), and those are the six column entries of row n of the two
   arguments. With the frame run this names the result of every run as `G f` of the two arguments. -/
import proofs.«114876_j22668837388898_1_alg».proof.Proof.RowCover
import proofs.«114876_j22668837388898_1_alg».proof.Proof.StagedColumns

noncomputable section

namespace Cert.KernelIdeal.RowLayout

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array after the lines that follow the region: `G f` of the two arguments. -/
theorem result_eq (f : Fin 3 → EReal → EReal → EReal → EReal → EReal → EReal → EReal)
    (hbody : ∀ (x0 x1 x2 x3 x4 x5 : Vec Ideal S256x512 .f32) (k : Fin 3) (p : Fin 256) (q : Fin 512),
      out0_6 (F := Ideal) x0 x1 x2 x3 x4 x5 (ix3 k p q)
        = f k (x0 (ix2 p q)) (x1 (ix2 p q)) (x2 (ix2 p q)) (x3 (ix2 p q)) (x4 (ix2 p q)) (x5 (ix2 p q)))
    (c : Dev nD) :
    Pipeline.afterTail₀ cfgs (dats m) 0 (V0 m) [hostOps1] c main_v19
      = G f (m ((c.tc : Thread nD τ).loc main_arg0)) (m ((c.tc : Thread nD τ).loc main_arg1)) := by
  have hw := (Pipeline.withArrays_arr spec0 launch0.win.arr_inj c (V0 m c) (fun w => (dats m 0 c).arrAt w cfg0.N) 6).trans
    (region_array m f hbody c)
  unfold Pipeline.afterTail₀
  show StableHlo.after hostOps1 _ (Proc.devRef .tc main_v19) = _
  after_results
  funext i
  obtain ⟨k, n, rfl⟩ : ∃ (k : Fin 3) (n : Fin 8388608), i = ix2 k n := ⟨i 0, i 1, eq_ix2 i⟩
  have hn : n.val < 8388608 := n.isLt
  obtain ⟨r, hr⟩ : ∃ r : Fin 16384, r.val = n.val / 512 := ⟨⟨n.val / 512, by omega⟩, rfl⟩
  obtain ⟨q, hq⟩ : ∃ q : Fin 512, q.val = n.val % 512 := ⟨⟨n.val % 512, by omega⟩, rfl⟩
  have hnrq : n.val = r.val * 512 + q.val := by omega
  refine (shapeCast_apply _ shapeCasts_S3x16384x512_S3x8388608 (ix2 k n) (ix3 k r q) ?_).trans ?_
  · rw [Shape.rowMajor_val_three, Shape.rowMajor_val_two]
    show (k.val * 16384 + r.val) * 512 + q.val = k.val * 8388608 + n.val
    omega
  refine (congrFun hw (ix3 k r q)).trans ?_
  rw [H_apply, G_apply, staged_main_v2 m c r q n hnrq, staged_main_v5 m c r q n hnrq, staged_main_v8 m c r q n hnrq,
    staged_main_v11 m c r q n hnrq, staged_main_v14 m c r q n hnrq, staged_main_v17 m c r q n hnrq]

/-- THE RUN, READ: at the compiled mesh, from any memory with zero counters, every weakly fair execution of the program
    terminates, and in every final state the result array is `G f` of the two argument arrays and the arguments are
    as launched. -/
theorem run (f : Fin 3 → EReal → EReal → EReal → EReal → EReal → EReal → EReal)
    (hbody : ∀ (x0 x1 x2 x3 x4 x5 : Vec Ideal S256x512 .f32) (k : Fin 3) (p : Fin 256) (q : Fin 512),
      out0_6 (F := Ideal) x0 x1 x2 x3 x4 x5 (ix3 k p q)
        = f k (x0 (ix2 p q)) (x1 (ix2 p q)) (x2 (ix2 p q)) (x3 (ix2 p q)) (x4 (ix2 p q)) (x5 (ix2 p q))) :
    θ_run defs (onTc (τ := τ) (main (F := Ideal))) ⟨m, fun _ => 0, ρ⟩ (fun r => ∀ c : Dev nD,
      r.2.mem ((c.tc : Thread nD τ).loc main_v19)
        = G f (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
      ⟨((h c).2 main_v19 (Pipeline.mem_restRefs_of main_v19 (by decide) (by decide))).trans (result_eq m f hbody c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.RowLayout

end
-- ==== Proof.ClipOrder.lean ====
/-
  Clipping to an interval [lo, hi] can be done from below first or from above first: when lo ≤ hi both give the
  point of the interval nearest x, in any linear order. The two bounds here are float32 words, 1e-7 and 1e7; their
  order is the only fact about a literal's value that the comparison of the two programs uses.
-/
import proofs.«114876_j22668837388898_1_alg».proof.Proof.GaussBox

noncomputable section

namespace GaussBox

open Idealize.ShloMosaic

/-- The word of 1e7 denotes exactly 10000000 = (2²³ + 1611392) · 2⁰. -/
theorem hi_eq : hi = ((10000000 : ℝ) : EReal) := by
  simp [hi, Ideal.ofBits, Ideal.ieee, -EReal.coe_mul]

/-- The word of 1e-7 denotes exactly 14073749 · 2⁻⁴⁷. -/
theorem lo_eq : lo = ((14073749 / 140737488355328 : ℝ) : EReal) := by
  simp [lo, Ideal.ofBits, Ideal.ieee, -EReal.coe_mul]; norm_num

theorem lo_le_hi : lo ≤ hi := by
  rw [lo_eq, hi_eq, EReal.coe_le_coe_iff]; norm_num

/-- From below then from above is from above then from below. -/
theorem clamp_swap (x : EReal) : min hi (max lo x) = clamp x := by
  unfold clamp
  have h := lo_le_hi
  rcases le_total x lo with hx | hx
  · rw [max_eq_left hx, min_eq_right h, min_eq_left (hx.trans h), max_eq_right hx]
  · rw [max_eq_right hx]
    rcases le_total x hi with hx' | hx'
    · rw [min_eq_right hx', min_eq_left hx', max_eq_left hx]
    · rw [min_eq_left hx', min_eq_right hx', max_eq_left h]

end GaussBox

end
-- ==== Proof.RefSpelling.lean ====
/-
  The reference spells a few steps of the chain differently from the kernel, and each spelling is the same function
  on the extended reals: a clip from below written max (bound, x) instead of max (x, bound) — the maximum is
  commutative —; the sides clipped from below first and from above second (the bounds are ordered); a negation -x where
  the kernel subtracts from zero; and the test "x is not itself" in its unordered form, which on a linear order is the
  ordered one. This file states the chain in the reference's spelling and proves each piece equal to the kernel's.
-/
import proofs.«114876_j22668837388898_1_alg».proof.Proof.ClipOrder
import Idealize.ShloMosaic.PureOps.Ideal.Laws

noncomputable section

namespace GaussBox

open Idealize.ShloMosaic

/-- A clip from below, the bound written first. -/
def floorR (e x : EReal) : EReal := max e x
theorem floorR_eq (e x : EReal) : floorR e x = max x e := max_comm e x

/-- A side clipped from below, then from above. -/
def clampR (x : EReal) : EReal := min hi (floorR lo x)
theorem clampR_eq (x : EReal) : clampR x = clamp x := clamp_swap x

/-- Subtracting from the zero word is negating: the word denotes 0. -/
theorem neg_eq (p : EReal) : -p = zero - p := by
  rw [show zero = 0 from Ideal.ofBits_zero_f32, zero_sub]

/-- On a linear order "unordered or different" is "different". -/
theorem cmp_une (v : EReal) : Ideal.cmp .une v v = Ideal.cmp .one v v := rfl

def detRootR (dp dt : EReal) : EReal := Ideal.sqrt (floorR lo (dp * dt))
theorem detRootR_eq (dp dt : EReal) : detRootR dp dt = detRoot dp dt := by
  unfold detRootR detRoot; rw [floorR_eq]

def crossTrR (p11 p12 p22 t11 t12 t22 dr : EReal) : EReal :=
  floorR lo (p11 * t11 + two * p12 * t12 + p22 * t22 + two * dr)
theorem crossTrR_eq (p11 p12 p22 t11 t12 t22 dr : EReal) :
    crossTrR p11 p12 p22 t11 t12 t22 dr = crossTr p11 p12 p22 t11 t12 t22 dr := by
  unfold crossTrR crossTr; rw [floorR_eq]

def gwdOfR (tr dr ct : EReal) : EReal :=
  squash (Ideal.div (Ideal.sqrt (floorR lo (tr - two * Ideal.sqrt ct)))
    (two * floorR lo (Ideal.sqrt (floorR lo (Ideal.sqrt (floorR lo dr))))))
theorem gwdOfR_eq (tr dr ct : EReal) : gwdOfR tr dr ct = gwdOf tr dr ct := by
  unfold gwdOfR gwdOf; simp only [floorR_eq]

def gain12R (p11 p12 m11 m12 ds : EReal) : EReal := Ideal.div ((-p11) * m12 + p12 * m11) ds
theorem gain12R_eq (p11 p12 m11 m12 ds : EReal) : gain12R p11 p12 m11 m12 ds = gain12 p11 p12 m11 m12 ds := by
  unfold gain12R gain12; rw [neg_eq]

def kfiOfR (p11 p12 p22 vp vt m11 m12 ds k11 k12 pm : EReal) : EReal :=
  let k21 := Ideal.div (pm - p22 * m12) ds
  let k22 := Ideal.div ((-p12) * m12 + p22 * m11) ds
  let g11 := p11 - (k11 * p11 + k12 * p12)
  let g12 := p12 - (k11 * p12 + k12 * p22)
  let g21 := p12 - (k21 * p11 + k22 * p12)
  let g22 := p22 - (k21 * p12 + k22 * p22)
  let vb := Scalar.select (Ideal.cmp .une (four * Ideal.sqrt (floorR tiny (g11 * g22 - g12 * g21)))
      (four * Ideal.sqrt (floorR tiny (g11 * g22 - g12 * g21)))) zero
    (four * Ideal.sqrt (floorR tiny (g11 * g22 - g12 * g21)))
  floorR zero (one - Ideal.div vb (vp + vt - vb + tiny))
theorem kfiOfR_eq (p11 p12 p22 vp vt m11 m12 ds k11 k12 pm : EReal) :
    kfiOfR p11 p12 p22 vp vt m11 m12 ds k11 k12 pm = kfiOf p11 p12 p22 vp vt m11 m12 ds k11 k12 pm := by
  unfold kfiOfR kfiOf dropUnordered
  simp only [floorR_eq, neg_eq, cmp_une]

def kldOfR (dp dt x : EReal) : EReal :=
  squash (Ideal.sqrt (floorR lo (half * Ideal.div x dp + half * (Ideal.log dp - Ideal.log dt) - one)))
theorem kldOfR_eq (dp dt x : EReal) : kldOfR dp dt x = kldOf dp dt x := by
  unfold kldOfR kldOf; rw [floorR_eq]

end GaussBox

end
-- ==== Proof.LibConcatRows.lean ====
/-
  Three matrices of one width stacked along the rows, read at an index: the row coordinate falls in exactly one of
  the three row ranges, and the stack there is that piece at the row counted from the piece's first.
-/
import Idealize.ShloMosaic.Lib.Pipeline.Value
import Idealize.ShloMosaic.Lib.ValueIdx

namespace LibConcatRows

open Idealize.ShloMosaic Idealize.ShloMosaic.ValueIdx

variable {α : Type} {a b c t n : Nat}

/-- A row of the first piece. -/
theorem stack3_fst (x : (⟨2, ![a, n]⟩ : Shape).Idx → α) (y : (⟨2, ![b, n]⟩ : Shape).Idx → α) (z : (⟨2, ![c, n]⟩ : Shape).Idx → α)
    (h : Shape.Concatenates [(⟨2, ![a, n]⟩ : Shape), ⟨2, ![b, n]⟩, ⟨2, ![c, n]⟩] ⟨2, ![t, n]⟩ 0)
    (k : Fin t) (q : Fin n) (hk : k.val < a) :
    concatenate ⟨2, ![t, n]⟩ 0 [⟨⟨2, ![a, n]⟩, x⟩, ⟨⟨2, ![b, n]⟩, y⟩, ⟨⟨2, ![c, n]⟩, z⟩] h (ix2 k q) = x (ix2 ⟨k.val, hk⟩ q) :=
  concatenate_apply_piece (t := ⟨2, ![t, n]⟩) 0 [⟨⟨2, ![a, n]⟩, x⟩, ⟨⟨2, ![b, n]⟩, y⟩, ⟨⟨2, ![c, n]⟩, z⟩] h (ix2 k q) 0 (by show 0 < 3; omega) ⟨2, ![a, n]⟩ x rfl rfl 0 rfl (ix2 ⟨k.val, hk⟩ q)
    (fun d hd => by match d with | ⟨0, _⟩ => exact absurd rfl hd | ⟨1, _⟩ => rfl)
    (by show 0 + k.val = k.val; omega)

/-- A row of the second piece. -/
theorem stack3_snd (x : (⟨2, ![a, n]⟩ : Shape).Idx → α) (y : (⟨2, ![b, n]⟩ : Shape).Idx → α) (z : (⟨2, ![c, n]⟩ : Shape).Idx → α)
    (h : Shape.Concatenates [(⟨2, ![a, n]⟩ : Shape), ⟨2, ![b, n]⟩, ⟨2, ![c, n]⟩] ⟨2, ![t, n]⟩ 0)
    (k : Fin t) (q : Fin n) (hk : a ≤ k.val) (hk' : k.val - a < b) :
    concatenate ⟨2, ![t, n]⟩ 0 [⟨⟨2, ![a, n]⟩, x⟩, ⟨⟨2, ![b, n]⟩, y⟩, ⟨⟨2, ![c, n]⟩, z⟩] h (ix2 k q) = y (ix2 ⟨k.val - a, hk'⟩ q) :=
  concatenate_apply_piece (t := ⟨2, ![t, n]⟩) 0 [⟨⟨2, ![a, n]⟩, x⟩, ⟨⟨2, ![b, n]⟩, y⟩, ⟨⟨2, ![c, n]⟩, z⟩] h (ix2 k q) 1 (by show 1 < 3; omega) ⟨2, ![b, n]⟩ y rfl rfl a (by simp) (ix2 ⟨k.val - a, hk'⟩ q)
    (fun d hd => by match d with | ⟨0, _⟩ => exact absurd rfl hd | ⟨1, _⟩ => rfl)
    (by show a + (k.val - a) = k.val; omega)

/-- A row of the third piece. -/
theorem stack3_thd (x : (⟨2, ![a, n]⟩ : Shape).Idx → α) (y : (⟨2, ![b, n]⟩ : Shape).Idx → α) (z : (⟨2, ![c, n]⟩ : Shape).Idx → α)
    (h : Shape.Concatenates [(⟨2, ![a, n]⟩ : Shape), ⟨2, ![b, n]⟩, ⟨2, ![c, n]⟩] ⟨2, ![t, n]⟩ 0)
    (k : Fin t) (q : Fin n) (hk : a + b ≤ k.val) (hk' : k.val - (a + b) < c) :
    concatenate ⟨2, ![t, n]⟩ 0 [⟨⟨2, ![a, n]⟩, x⟩, ⟨⟨2, ![b, n]⟩, y⟩, ⟨⟨2, ![c, n]⟩, z⟩] h (ix2 k q) = z (ix2 ⟨k.val - (a + b), hk'⟩ q) :=
  concatenate_apply_piece (t := ⟨2, ![t, n]⟩) 0 [⟨⟨2, ![a, n]⟩, x⟩, ⟨⟨2, ![b, n]⟩, y⟩, ⟨⟨2, ![c, n]⟩, z⟩] h (ix2 k q) 2 (by show 2 < 3; omega) ⟨2, ![c, n]⟩ z rfl rfl (a + b) (by simp) (ix2 ⟨k.val - (a + b), hk'⟩ q)
    (fun d hd => by match d with | ⟨0, _⟩ => exact absurd rfl hd | ⟨1, _⟩ => rfl)
    (by show a + b + (k.val - (a + b)) = k.val; omega)

end LibConcatRows
-- ==== Proof.RefAtIndex.lean ====
/-
  The reference computes the same chain on whole columns: entry i of every intermediate vector is the matching scalar
  operation on entries i of its operands, down to the three columns of row i of each argument. This file reads its
  stages at an index: the clipped sides and squared half-sides, the two covariances, then each distance — in the
  reference's own spelling, which the spelling lemmas turn into the kernel's — and last the three result rows stacked.
-/
import proofs.«114876_j22668837388898_1_alg».proof.Proof.RefStagesQ
import proofs.«114876_j22668837388898_1_alg».proof.Proof.RefSpelling
import proofs.«114876_j22668837388898_1_alg».proof.Proof.LibConcatRows
import Idealize.ShloMosaic.Lib.ValueIdx

set_option maxRecDepth 16384

noncomputable section

namespace GaussBox.Ref

open Idealize.ShloMosaic Idealize.ShloMosaic.ValueIdx Cert.ReferenceIdeal Cert.ReferenceIdeal.ReadQ GaussBox

/-- An argument array: 8388608 rows of (width, height, angle). -/
abbrev Arg := (⟨S8388608x3, .f32⟩ : BufTy).Contents (Elt Ideal)

variable (x0 x1 : Arg) (i : S8388608.Idx)

/-! ### The first box: columns of row `i 0` of the first argument -/

theorem p_col0 : idx_main_v0 (idx_main_v2 (idx_main_v3 i)) = ix2 (i 0) (0 : Fin 3) :=
  funext fun a => Fin.ext (by match a with | ⟨0, _⟩ => exact Nat.div_one _ | ⟨1, _⟩ => rfl)
theorem p_col1 : idx_main_v0 (idx_main_v7 (idx_main_v8 i)) = ix2 (i 0) (1 : Fin 3) :=
  funext fun a => Fin.ext (by match a with | ⟨0, _⟩ => exact Nat.div_one _ | ⟨1, _⟩ => rfl)
theorem p_col2 : idx_main_v12 (idx_main_v13 i) = ix2 (i 0) (2 : Fin 3) :=
  funext fun a => Fin.ext (by match a with | ⟨0, _⟩ => exact Nat.div_one _ | ⟨1, _⟩ => rfl)

/-- The width: column 0, clipped. -/
theorem p_w : val_main_v3 x0 i = clamp (x0 (ix2 (i 0) (0 : Fin 3))) := by
  rw [val_main_v3_apply, val_main_v2_apply, val_main_v1_apply, val_main_call0_v4_apply, val_main_call0_v3_apply,
    val_main_cst_0_apply, val_main_call0_v2_apply, val_main_call0_v1_apply, val_main_call0_v0_apply, val_main_cst_apply,
    val_main_v0_apply, p_col0]
  exact clampR_eq _
/-- The height: column 1, clipped. -/
theorem p_h : val_main_v8 x0 i = clamp (x0 (ix2 (i 0) (1 : Fin 3))) := by
  rw [val_main_v8_apply, val_main_v7_apply, val_main_v1_apply, val_main_call0_v4_apply, val_main_call0_v3_apply,
    val_main_cst_0_apply, val_main_call0_v2_apply, val_main_call0_v1_apply, val_main_call0_v0_apply, val_main_cst_apply,
    val_main_v0_apply, p_col1]
  exact clampR_eq _
/-- The angle: column 2. -/
theorem p_r : val_main_v13 x0 i = (x0 (ix2 (i 0) (2 : Fin 3))) := by
  rw [val_main_v13_apply, val_main_v12_apply, p_col2]
  rfl
theorem p_a : val_main_v6 x0 i = sq (clamp (x0 (ix2 (i 0) (0 : Fin 3)))) := by
  rw [val_main_v6_apply, val_main_v5_apply, val_main_v4_apply, val_main_cst_1_apply, p_w]; rfl
theorem p_b : val_main_v11 x0 i = sq (clamp (x0 (ix2 (i 0) (1 : Fin 3)))) := by
  rw [val_main_v11_apply, val_main_v10_apply, val_main_v9_apply, val_main_cst_2_apply, p_h]; rfl
theorem p_cos : val_main_v14 x0 i = Ideal.cos (x0 (ix2 (i 0) (2 : Fin 3))) := by
  rw [val_main_v14_apply, p_r]; rfl
theorem p_sin : val_main_v15 x0 i = Ideal.sin (x0 (ix2 (i 0) (2 : Fin 3))) := by
  rw [val_main_v15_apply, p_r]; rfl

theorem p_11 : val_main_v20 x0 i = cov11 (x0 (ix2 (i 0) (0 : Fin 3))) (x0 (ix2 (i 0) (1 : Fin 3))) (x0 (ix2 (i 0) (2 : Fin 3))) := by
  show val_main_v6 x0 i * val_main_v14 x0 i * val_main_v14 x0 i + val_main_v11 x0 i * val_main_v15 x0 i * val_main_v15 x0 i = _
  rw [p_a, p_b, p_cos, p_sin]; rfl
theorem p_12 : val_main_v23 x0 i = cov12 (x0 (ix2 (i 0) (0 : Fin 3))) (x0 (ix2 (i 0) (1 : Fin 3))) (x0 (ix2 (i 0) (2 : Fin 3))) := by
  show (val_main_v6 x0 i - val_main_v11 x0 i) * val_main_v15 x0 i * val_main_v14 x0 i = _
  rw [p_a, p_b, p_cos, p_sin]; rfl
theorem p_22 : val_main_v28 x0 i = cov22 (x0 (ix2 (i 0) (0 : Fin 3))) (x0 (ix2 (i 0) (1 : Fin 3))) (x0 (ix2 (i 0) (2 : Fin 3))) := by
  show val_main_v6 x0 i * val_main_v15 x0 i * val_main_v15 x0 i + val_main_v11 x0 i * val_main_v14 x0 i * val_main_v14 x0 i = _
  rw [p_a, p_b, p_cos, p_sin]; rfl
theorem p_det : val_main_v29 x0 i = covDet (x0 (ix2 (i 0) (0 : Fin 3))) (x0 (ix2 (i 0) (1 : Fin 3))) := by
  show val_main_v6 x0 i * val_main_v11 x0 i = _
  rw [p_a, p_b]; rfl

/-! ### The second box: columns of row `i 0` of the second argument -/

theorem t_col0 : idx_main_v30 (idx_main_v32 (idx_main_v33 i)) = ix2 (i 0) (0 : Fin 3) :=
  funext fun a => Fin.ext (by match a with | ⟨0, _⟩ => exact Nat.div_one _ | ⟨1, _⟩ => rfl)
theorem t_col1 : idx_main_v30 (idx_main_v37 (idx_main_v38 i)) = ix2 (i 0) (1 : Fin 3) :=
  funext fun a => Fin.ext (by match a with | ⟨0, _⟩ => exact Nat.div_one _ | ⟨1, _⟩ => rfl)
theorem t_col2 : idx_main_v42 (idx_main_v43 i) = ix2 (i 0) (2 : Fin 3) :=
  funext fun a => Fin.ext (by match a with | ⟨0, _⟩ => exact Nat.div_one _ | ⟨1, _⟩ => rfl)

/-- The width: column 0, clipped. -/
theorem t_w : val_main_v33 x1 i = clamp (x1 (ix2 (i 0) (0 : Fin 3))) := by
  rw [val_main_v33_apply, val_main_v32_apply, val_main_v31_apply, val_main_call1_v4_apply, val_main_call1_v3_apply,
    val_main_cst_4_apply, val_main_call1_v2_apply, val_main_call1_v1_apply, val_main_call1_v0_apply, val_main_cst_3_apply,
    val_main_v30_apply, t_col0]
  exact clampR_eq _
/-- The height: column 1, clipped. -/
theorem t_h : val_main_v38 x1 i = clamp (x1 (ix2 (i 0) (1 : Fin 3))) := by
  rw [val_main_v38_apply, val_main_v37_apply, val_main_v31_apply, val_main_call1_v4_apply, val_main_call1_v3_apply,
    val_main_cst_4_apply, val_main_call1_v2_apply, val_main_call1_v1_apply, val_main_call1_v0_apply, val_main_cst_3_apply,
    val_main_v30_apply, t_col1]
  exact clampR_eq _
/-- The angle: column 2. -/
theorem t_r : val_main_v43 x1 i = (x1 (ix2 (i 0) (2 : Fin 3))) := by
  rw [val_main_v43_apply, val_main_v42_apply, t_col2]
  rfl
theorem t_a : val_main_v36 x1 i = sq (clamp (x1 (ix2 (i 0) (0 : Fin 3)))) := by
  rw [val_main_v36_apply, val_main_v35_apply, val_main_v34_apply, val_main_cst_5_apply, t_w]; rfl
theorem t_b : val_main_v41 x1 i = sq (clamp (x1 (ix2 (i 0) (1 : Fin 3)))) := by
  rw [val_main_v41_apply, val_main_v40_apply, val_main_v39_apply, val_main_cst_6_apply, t_h]; rfl
theorem t_cos : val_main_v44 x1 i = Ideal.cos (x1 (ix2 (i 0) (2 : Fin 3))) := by
  rw [val_main_v44_apply, t_r]; rfl
theorem t_sin : val_main_v45 x1 i = Ideal.sin (x1 (ix2 (i 0) (2 : Fin 3))) := by
  rw [val_main_v45_apply, t_r]; rfl

theorem t_11 : val_main_v50 x1 i = cov11 (x1 (ix2 (i 0) (0 : Fin 3))) (x1 (ix2 (i 0) (1 : Fin 3))) (x1 (ix2 (i 0) (2 : Fin 3))) := by
  show val_main_v36 x1 i * val_main_v44 x1 i * val_main_v44 x1 i + val_main_v41 x1 i * val_main_v45 x1 i * val_main_v45 x1 i = _
  rw [t_a, t_b, t_cos, t_sin]; rfl
theorem t_12 : val_main_v53 x1 i = cov12 (x1 (ix2 (i 0) (0 : Fin 3))) (x1 (ix2 (i 0) (1 : Fin 3))) (x1 (ix2 (i 0) (2 : Fin 3))) := by
  show (val_main_v36 x1 i - val_main_v41 x1 i) * val_main_v45 x1 i * val_main_v44 x1 i = _
  rw [t_a, t_b, t_cos, t_sin]; rfl
theorem t_22 : val_main_v58 x1 i = cov22 (x1 (ix2 (i 0) (0 : Fin 3))) (x1 (ix2 (i 0) (1 : Fin 3))) (x1 (ix2 (i 0) (2 : Fin 3))) := by
  show val_main_v36 x1 i * val_main_v45 x1 i * val_main_v45 x1 i + val_main_v41 x1 i * val_main_v44 x1 i * val_main_v44 x1 i = _
  rw [t_a, t_b, t_cos, t_sin]; rfl
theorem t_det : val_main_v59 x1 i = covDet (x1 (ix2 (i 0) (0 : Fin 3))) (x1 (ix2 (i 0) (1 : Fin 3))) := by
  show val_main_v36 x1 i * val_main_v41 x1 i = _
  rw [t_a, t_b]; rfl

/-! ### The three distances of row `i 0` -/

theorem gwd_at : val_main_v97 x0 x1 i = gwd (x0 (ix2 (i 0) (0 : Fin 3))) (x0 (ix2 (i 0) (1 : Fin 3))) (x0 (ix2 (i 0) (2 : Fin 3))) (x1 (ix2 (i 0) (0 : Fin 3))) (x1 (ix2 (i 0) (1 : Fin 3))) (x1 (ix2 (i 0) (2 : Fin 3))) := by
  show gwdOfR (trSum (val_main_v20 x0 i) (val_main_v28 x0 i) (val_main_v50 x1 i) (val_main_v58 x1 i)) (detRootR (val_main_v29 x0 i) (val_main_v59 x1 i))
      (crossTrR (val_main_v20 x0 i) (val_main_v23 x0 i) (val_main_v28 x0 i) (val_main_v50 x1 i) (val_main_v53 x1 i) (val_main_v58 x1 i) (detRootR (val_main_v29 x0 i) (val_main_v59 x1 i))) = _
  rw [gwdOfR_eq, detRootR_eq, crossTrR_eq, p_11, p_12, p_22, p_det, t_11, t_12, t_22, t_det]; rfl

theorem kfi_at : val_main_v160 x0 x1 i = kfi (x0 (ix2 (i 0) (0 : Fin 3))) (x0 (ix2 (i 0) (1 : Fin 3))) (x0 (ix2 (i 0) (2 : Fin 3))) (x1 (ix2 (i 0) (0 : Fin 3))) (x1 (ix2 (i 0) (1 : Fin 3))) (x1 (ix2 (i 0) (2 : Fin 3))) := by
  show kfiOfR (val_main_v20 x0 i) (val_main_v23 x0 i) (val_main_v28 x0 i) (vol (val_main_v29 x0 i)) (vol (val_main_v59 x1 i)) (val_main_v20 x0 i + val_main_v50 x1 i) (val_main_v23 x0 i + val_main_v53 x1 i) (sumDet (val_main_v20 x0 i + val_main_v50 x1 i) (val_main_v23 x0 i + val_main_v53 x1 i) (val_main_v28 x0 i + val_main_v58 x1 i))
      (gain11 (val_main_v20 x0 i) (val_main_v23 x0 i) (val_main_v23 x0 i + val_main_v53 x1 i) (val_main_v28 x0 i + val_main_v58 x1 i) (sumDet (val_main_v20 x0 i + val_main_v50 x1 i) (val_main_v23 x0 i + val_main_v53 x1 i) (val_main_v28 x0 i + val_main_v58 x1 i)))
      (gain12R (val_main_v20 x0 i) (val_main_v23 x0 i) (val_main_v20 x0 i + val_main_v50 x1 i) (val_main_v23 x0 i + val_main_v53 x1 i) (sumDet (val_main_v20 x0 i + val_main_v50 x1 i) (val_main_v23 x0 i + val_main_v53 x1 i) (val_main_v28 x0 i + val_main_v58 x1 i)))
      (val_main_v23 x0 i * (val_main_v28 x0 i + val_main_v58 x1 i)) = _
  rw [kfiOfR_eq, gain12R_eq, p_11, p_12, p_22, p_det, t_11, t_12, t_22, t_det]; rfl

theorem kld_at : val_main_v187 x0 x1 i = kld (x0 (ix2 (i 0) (0 : Fin 3))) (x0 (ix2 (i 0) (1 : Fin 3))) (x0 (ix2 (i 0) (2 : Fin 3))) (x1 (ix2 (i 0) (0 : Fin 3))) (x1 (ix2 (i 0) (1 : Fin 3))) (x1 (ix2 (i 0) (2 : Fin 3))) := by
  show kldOfR (val_main_v29 x0 i) (val_main_v59 x1 i) (adjTr (val_main_v20 x0 i) (val_main_v23 x0 i) (val_main_v28 x0 i) (val_main_v50 x1 i) (val_main_v53 x1 i) (val_main_v58 x1 i)) = _
  rw [kldOfR_eq, p_11, p_12, p_22, p_det, t_11, t_12, t_22, t_det]; rfl

/-! ### The result: the three rows stacked -/

theorem row_index (n : Fin 8388608) (k : Fin 1) : idx_main_v188 (ix2 k n) = ix1 n :=
  funext fun a => by match a with | ⟨0, _⟩ => rfl

/-- Entry (k, n) of the reference's result is distance k of rows n of the two arguments. -/
theorem result_at (k : Fin 3) (n : Fin 8388608) :
    val_main_v191 x0 x1 (ix2 k n)
      = out k (x0 (ix2 n (0 : Fin 3))) (x0 (ix2 n (1 : Fin 3))) (x0 (ix2 n (2 : Fin 3)))
          (x1 (ix2 n (0 : Fin 3))) (x1 (ix2 n (1 : Fin 3))) (x1 (ix2 n (2 : Fin 3))) := by
  unfold val_main_v191
  match k with
  | ⟨0, _⟩ =>
    refine (LibConcatRows.stack3_fst (a := 1) (b := 1) (c := 1) (t := 3) (n := 8388608) _ _ _ _ ⟨0, by decide⟩ n (by decide)).trans ?_
    rw [val_main_v188_apply]
    exact gwd_at x0 x1 _
  | ⟨1, _⟩ =>
    refine (LibConcatRows.stack3_snd (a := 1) (b := 1) (c := 1) (t := 3) (n := 8388608) _ _ _ _ ⟨1, by decide⟩ n (by decide) (by decide)).trans ?_
    rw [val_main_v189_apply]
    exact kfi_at x0 x1 _
  | ⟨2, _⟩ =>
    refine (LibConcatRows.stack3_thd (a := 1) (b := 1) (c := 1) (t := 3) (n := 8388608) _ _ _ _ ⟨2, by decide⟩ n (by decide) (by decide)).trans ?_
    rw [val_main_v190_apply]
    exact kld_at x0 x1 _

end GaussBox.Ref

end
-- ==== Proof.lean ====
/- The kernel and its reference compute, for each of 8388608 pairs of rotated boxes (width, height, angle), three
   distances between the boxes read as centred Gaussians — the Gaussian Wasserstein distance, the Kalman-filter
   overlap loss and the Kullback–Leibler divergence, each squashed by d ↦ 1 - 1 / (1 + log (1 + d)) — and return them
   as three rows of 8388608 entries. Both apply one and the same chain of pointwise operations to the six numbers of a
   pair (Proof/GaussBox.lean states it over the extended reals); they differ in layout and in a few spellings.
   The kernel splits the two [8388608, 3] arguments into six columns laid out as [16384, 512], runs the chain on blocks
   of 256 rows over a grid of 64 points into three planes, and lays the planes out as rows: entry (k, n) of its result
   is distance k of rows n of the two arguments (Proof/BodyAtIndex.lean: the output block is the chain entry by entry;
   the row-layout modules: from blocks to the result array). The reference runs the chain on whole columns and stacks the
   three results (Proof/RefAtIndex.lean). The spellings that differ — the sides clipped to [1e-7, 1e7] from above first
   or from below first, max (x, bound) or max (bound, x), 0 - x or -x, "not itself" in its ordered or unordered form —
   are each the same function on the extended reals (Proof/ClipOrder.lean, Proof/RefSpelling.lean); the only fact about
   a literal's value used is 1e-7 ≤ 1e7. No step needs an input to be finite: the chain is the same on both sides.
   The idealization rewrote nothing (no ledger entry), so the kernel's idealization is its own text read over the
   extended reals; the frames of both kernel programs are the generated ones, the reference's is its run with the
   result dropped. -/
import proofs.«114876_j22668837388898_1_alg».proof.Defs
import proofs.«114876_j22668837388898_1_alg».proof.Proof.Gen.Kernel
import proofs.«114876_j22668837388898_1_alg».proof.Proof.Gen.Kernel.Skeleton
import proofs.«114876_j22668837388898_1_alg».proof.Proof.Gen.Kernel.Launch
import proofs.«114876_j22668837388898_1_alg».proof.Proof.Gen.Kernel.Points
import proofs.«114876_j22668837388898_1_alg».proof.Proof.Gen.Kernel.Frame
import proofs.«114876_j22668837388898_1_alg».proof.Proof.Gen.KernelIdeal
import proofs.«114876_j22668837388898_1_alg».proof.Proof.Gen.KernelIdeal.Skeleton
import proofs.«114876_j22668837388898_1_alg».proof.Proof.Gen.KernelIdeal.Launch
import proofs.«114876_j22668837388898_1_alg».proof.Proof.Gen.KernelIdeal.Points
import proofs.«114876_j22668837388898_1_alg».proof.Proof.Gen.KernelIdeal.Frame
import proofs.«114876_j22668837388898_1_alg».proof.Proof.Gen.ReferenceIdeal
import proofs.«114876_j22668837388898_1_alg».proof.Proof.Gen.Pre_finite_inputs
import proofs.«114876_j22668837388898_1_alg».proof.Proof.BodyAtIndex
import proofs.«114876_j22668837388898_1_alg».proof.Proof.ResultRows
import proofs.«114876_j22668837388898_1_alg».proof.Proof.RefAtIndex
import proofs.«114876_j22668837388898_1_alg».proof.Proof.RefRunQ
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result array is the same function of the two arguments as the kernel's: entry (k, n) is distance
    k of rows n. -/
theorem ref_result (a0 a1 : GaussBox.Ref.Arg) :
    Cert.ReferenceIdeal.ReadQ.val_main_v191 (F := Ideal) a0 a1 = Cert.KernelIdeal.RowLayout.G GaussBox.out a0 a1 := by
  funext i
  obtain ⟨k, n, rfl⟩ : ∃ (k : Fin 3) (n : Fin 8388608), i = ix2 k n := ⟨i 0, i 1, eq_ix2 i⟩
  exact GaussBox.Ref.result_at a0 a1 k n

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueQ.run (F := Ideal) m ρ)

/-- The idealization rewrote no operation: nothing to preserve. -/
theorem preserves : Cert.preserves_Kernel_KernelIdeal := trivial

/-- Both runs end with the result array at the one function of the arguments, and the arguments agree. -/
theorem algebraic : Cert.algebraic_KernelIdeal_ReferenceIdeal := by
  intro m ρ m' ρ' _ hagree
  refine ⟨_, Cert.KernelIdeal.RowLayout.run m ρ GaussBox.out GaussBox.Body.body_at, ?_⟩
  refine (θ_run Cert.ReferenceIdeal.defs _ _).mono (fun _ h c => ⟨(h c).1.trans ?_, (h c).2⟩)
    (Cert.ReferenceIdeal.ValueQ.run (F := Ideal) m' ρ')
  show Cert.ReferenceIdeal.ReadQ.val_main_v191 (F := Ideal) _ _ = _
  rw [ref_result, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
